-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x4096 : Shape := ⟨2, ![512, 4096]⟩
abbrev S2048x4096 : Shape := ⟨2, ![2048, 4096]⟩
abbrev S4096x4096 : Shape := ⟨2, ![4096, 4096]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg5 : FVec F S2048x4096 .f32) (main_arg6 : FVec F S4096x4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S2048x4096 .f32 := Host.absf main_arg5
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S4096x4096 .f32 := Host.absf main_arg6
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S512x2048 .f32) (main_arg1 : FVec F S512x4096 .f32) (main_arg2 : IVec S512x4096 32) (main_arg3 : FVec F S512x4096 .f32) (main_arg4 : FVec F S512x4096 .f32) (main_arg5 : FVec F S2048x4096 .f32) (main_arg6 : FVec F S4096x4096 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S512x4096 .f32 := Host.absf main_arg3
  let main_cst_2 : FVec F S_ .f32 := constant S_ .f32 0x7F800000#32
  let main_v10 : FVec F S512x4096 .f32 := broadcastInDim S512x4096 ![] bcast_S_S512x4096 main_cst_2
  let main_v11 : IVec S512x4096 1 := cmpf .olt main_v9 main_v10
  let main_c_3 : IVec S_ 1 := constantI S_ 1 1#1
  let main_v12 : IVec S_ 1 := (fun x v => Host.reduce IntOp.andi x v reducesTo_S512x4096_S_d0_1 h_S_) main_v11 main_c_3
  let main_v13 : IVec S_ 1 := andi main_v8 main_v12
  let main_v14 : FVec F S512x4096 .f32 := Host.absf main_arg4
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg5 main_arg6 main_v13 main_v16
-- ==== Kernel.lean ====
abbrev S512x2048 : Shape := ⟨2, ![512, 2048]⟩
abbrev S512x4096 : Shape := ⟨2, ![512, 4096]⟩
abbrev S2048x4096 : Shape := ⟨2, ![2048, 4096]⟩
abbrev S4096x4096 : Shape := ⟨2, ![4096, 4096]⟩
abbrev S2048x256 : Shape := ⟨2, ![2048, 256]⟩
abbrev S4096x256 : Shape := ⟨2, ![4096, 256]⟩
abbrev S512x256 : Shape := ⟨2, ![512, 256]⟩

abbrev nBuf : Space → Nat
  | .hbm => 11
  | .vmem => 22
  | .smem => 0
  | _ => 0

abbrev bufTy : (tb : Table) → Fin (tcTables nBuf tb) → BufTy
  | .hbm, ⟨0, _⟩ => ⟨S512x2048, .f32⟩
  | .hbm, ⟨1, _⟩ => ⟨S512x4096, .f32⟩
  | .hbm, ⟨2, _⟩ => ⟨S512x4096, .i32⟩
  | .hbm, ⟨3, _⟩ => ⟨S512x4096, .f32⟩
  | .hbm, ⟨4, _⟩ => ⟨S512x4096, .f32⟩
  | .hbm, ⟨5, _⟩ => ⟨S2048x4096, .f32⟩
  | .hbm, ⟨6, _⟩ => ⟨S4096x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .i32⟩
  | .local _ .vmem, ⟨0, _⟩ => ⟨S512x2048, .f32⟩
  | .local _ .vmem, ⟨1, _⟩ => ⟨S2048x256, .f32⟩
  | .local _ .vmem, ⟨2, _⟩ => ⟨S2048x256, .f32⟩
  | .local _ .vmem, ⟨3, _⟩ => ⟨S512x4096, .f32⟩
  | .local _ .vmem, ⟨4, _⟩ => ⟨S4096x256, .f32⟩
  | .local _ .vmem, ⟨5, _⟩ => ⟨S4096x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .i32⟩
  | .local _ .vmem, ⟨13, _⟩ => ⟨S512x256, .i32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .i32⟩
  | .local _ .vmem, ⟨21, _⟩ => ⟨S512x256, .i32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  iota_S4096x256_d0_w32 : S4096x256.Iotas .tc 32 [0]
  iota_S4096x256_d1_w32 : S4096x256.Iotas .tc 32 [1]
  inb_S4096x256_S4096x256_0_0 : ∀ a, (![0, 0] : Fin 2 → Nat) a + S4096x256.size a ≤ S4096x256.size a
  h_S4096x256 : 0 < S4096x256.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S512x4096_S512x4096_0_0 : ∀ a, (![0, 0] : Fin 2 → Nat) a + S512x4096.size a ≤ S512x4096.size a
  h_S512x4096 : 0 < S512x4096.numel
  inb_S512x256_S512x256_0_0 : ∀ a, (![0, 0] : Fin 2 → Nat) a + S512x256.size a ≤ S512x256.size a
  h_S512x256 : 0 < S512x256.numel
  natLt_1_32 : 1 < 32
  dot_S512x2048_S2048x256_S512x256_1_0_0_1_n_n_wf : DotDims.WF S512x2048 S2048x256 S512x256 [1] [0] [0] [1] [] []
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x4096.size a
  hwx0_1 : ∀ i : grid0.Coords, EltTy.bits .f32 = 32 ∨ (Rect.block (s := S2048x4096) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S512x4096.size a
  hwx0_2 : ∀ i : grid0.Coords, EltTy.bits .f32 = 32 ∨ (Rect.block (s := S512x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x4096.size a
  hwx0_3 : ∀ i : grid0.Coords, EltTy.bits .f32 = 32 ∨ (Rect.block (s := S4096x4096) S4096x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x4096.size a
  hwx0_4 : ∀ i : grid0.Coords, EltTy.bits .f32 = 32 ∨ (Rect.block (s := S512x4096) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x4096.size a
  hwx0_5 : ∀ i : grid0.Coords, EltTy.bits .f32 = 32 ∨ (Rect.block (s := S512x4096) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x4096.size a
  hwx0_6 : ∀ i : grid0.Coords, EltTy.bits .f32 = 32 ∨ (Rect.block (s := S512x4096) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x4096.size a
  hwx0_7 : ∀ i : grid0.Coords, EltTy.bits .i32 = 32 ∨ (Rect.block (s := S512x4096) S512x256.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x4096.size a
  hwx0_8 : ∀ i : grid0.Coords, EltTy.bits .f32 = 32 ∨ (Rect.block (s := S512x4096) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S512x4096.size a
  hwx0_9 : ∀ i : grid0.Coords, EltTy.bits .f32 = 32 ∨ (Rect.block (s := S512x4096) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x4096.size a
  hwx0_10 : ∀ i : grid0.Coords, EltTy.bits .f32 = 32 ∨ (Rect.block (s := S512x4096) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S512x4096.size a
  hwx0_11 : ∀ i : grid0.Coords, EltTy.bits .i32 = 32 ∨ (Rect.block (s := S512x4096) S512x256.size (cc0_transform_11 i) (hinb0_11 i)).WholeWords (EltTy.packing .i32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S512x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S512x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_2) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_3) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S512x2048 : Shape := ⟨2, ![512, 2048]⟩
abbrev S512x4096 : Shape := ⟨2, ![512, 4096]⟩
abbrev S2048x4096 : Shape := ⟨2, ![2048, 4096]⟩
abbrev S4096x4096 : Shape := ⟨2, ![4096, 4096]⟩
abbrev S_ : Shape := ⟨0, ![]⟩

abbrev nBuf : Space → Nat
  | .hbm => 119
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x4096, .f32⟩
  | .hbm, ⟨2, _⟩ => ⟨S512x4096, .i32⟩
  | .hbm, ⟨3, _⟩ => ⟨S512x4096, .f32⟩
  | .hbm, ⟨4, _⟩ => ⟨S512x4096, .f32⟩
  | .hbm, ⟨5, _⟩ => ⟨S2048x4096, .f32⟩
  | .hbm, ⟨6, _⟩ => ⟨S4096x4096, .f32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S_, .f32⟩
  | .hbm, ⟨33, _⟩ => ⟨S512x4096, .f32⟩
  | .hbm, ⟨34, _⟩ => ⟨S512x4096, .f32⟩
  | .hbm, ⟨35, _⟩ => ⟨S512x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S512x4096, .f32⟩
  | .hbm, ⟨40, _⟩ => ⟨S512x4096, .f32⟩
  | .hbm, ⟨41, _⟩ => ⟨S_, .f32⟩
  | .hbm, ⟨42, _⟩ => ⟨S512x4096, .f32⟩
  | .hbm, ⟨43, _⟩ => ⟨S512x4096, .f32⟩
  | .hbm, ⟨44, _⟩ => ⟨S_, .f32⟩
  | .hbm, ⟨45, _⟩ => ⟨S512x4096, .f32⟩
  | .hbm, ⟨46, _⟩ => ⟨S512x4096, .f32⟩
  | .hbm, ⟨47, _⟩ => ⟨S_, .f32⟩
  | .hbm, ⟨48, _⟩ => ⟨S512x4096, .f32⟩
  | .hbm, ⟨49, _⟩ => ⟨S512x4096, .f32⟩
  | .hbm, ⟨50, _⟩ => ⟨S512x4096, .f32⟩
  | .hbm, ⟨51, _⟩ => ⟨S_, .f32⟩
  | .hbm, ⟨52, _⟩ => ⟨S512x4096, .f32⟩
  | .hbm, ⟨53, _⟩ => ⟨S512x4096, .f32⟩
  | .hbm, ⟨54, _⟩ => ⟨S512x4096, .f32⟩
  | .hbm, ⟨55, _⟩ => ⟨S512x4096, .f32⟩
  | .hbm, ⟨56, _⟩ => ⟨S_, .f32⟩
  | .hbm, ⟨57, _⟩ => ⟨S512x4096, .f32⟩
  | .hbm, ⟨58, _⟩ => ⟨S512x4096, .f32⟩
  | .hbm, ⟨59, _⟩ => ⟨S_, .f32⟩
  | .hbm, ⟨60, _⟩ => ⟨S512x4096, .f32⟩
  | .hbm, ⟨61, _⟩ => ⟨S512x4096, .f32⟩
  | .hbm, ⟨62, _⟩ => ⟨S512x4096, .f32⟩
  | .hbm, ⟨63, _⟩ => ⟨S_, .f32⟩
  | .hbm, ⟨64, _⟩ => ⟨S512x4096, .f32⟩
  | .hbm, ⟨65, _⟩ => ⟨S512x4096, .i1⟩
  | .hbm, ⟨66, _⟩ => ⟨S_, .f32⟩
  | .hbm, ⟨67, _⟩ => ⟨S512x4096, .f32⟩
  | .hbm, ⟨68, _⟩ => ⟨S512x4096, .f32⟩
  | .hbm, ⟨69, _⟩ => ⟨S_, .f32⟩
  | .hbm, ⟨70, _⟩ => ⟨S512x4096, .f32⟩
  | .hbm, ⟨71, _⟩ => ⟨S512x4096, .f32⟩
  | .hbm, ⟨72, _⟩ => ⟨S512x4096, .f32⟩
  | .hbm, ⟨73, _⟩ => ⟨S_, .f32⟩
  | .hbm, ⟨74, _⟩ => ⟨S512x4096, .f32⟩
  | .hbm, ⟨75, _⟩ => ⟨S512x4096, .f32⟩
  | .hbm, ⟨76, _⟩ => ⟨S_, .f32⟩
  | .hbm, ⟨77, _⟩ => ⟨S512x4096, .f32⟩
  | .hbm, ⟨78, _⟩ => ⟨S512x4096, .f32⟩
  | .hbm, ⟨79, _⟩ => ⟨S512x4096, .f32⟩
  | .hbm, ⟨80, _⟩ => ⟨S_, .f32⟩
  | .hbm, ⟨81, _⟩ => ⟨S512x4096, .f32⟩
  | .hbm, ⟨82, _⟩ => ⟨S512x4096, .f32⟩
  | .hbm, ⟨83, _⟩ => ⟨S512x4096, .f32⟩
  | .hbm, ⟨84, _⟩ => ⟨S_, .f32⟩
  | .hbm, ⟨85, _⟩ => ⟨S512x4096, .f32⟩
  | .hbm, ⟨86, _⟩ => ⟨S512x4096, .f32⟩
  | .hbm, ⟨87, _⟩ => ⟨S512x4096, .f32⟩
  | .hbm, ⟨88, _⟩ => ⟨S_, .f32⟩
  | .hbm, ⟨89, _⟩ => ⟨S512x4096, .f32⟩
  | .hbm, ⟨90, _⟩ => ⟨S512x4096, .f32⟩
  | .hbm, ⟨91, _⟩ => ⟨S_, .f32⟩
  | .hbm, ⟨92, _⟩ => ⟨S_, .f32⟩
  | .hbm, ⟨93, _⟩ => ⟨S512x4096, .f32⟩
  | .hbm, ⟨94, _⟩ => ⟨S512x4096, .i1⟩
  | .hbm, ⟨95, _⟩ => ⟨S512x4096, .f32⟩
  | .hbm, ⟨96, _⟩ => ⟨S_, .i32⟩
  | .hbm, ⟨97, _⟩ => ⟨S512x4096, .i32⟩
  | .hbm, ⟨98, _⟩ => ⟨S512x4096, .i1⟩
  | .hbm, ⟨99, _⟩ => ⟨S_, .f32⟩
  | .hbm, ⟨100, _⟩ => ⟨S_, .f32⟩
  | .hbm, ⟨101, _⟩ => ⟨S512x4096, .f32⟩
  | .hbm, ⟨102, _⟩ => ⟨S512x4096, .f32⟩
  | .hbm, ⟨103, _⟩ => ⟨S_, .i32⟩
  | .hbm, ⟨104, _⟩ => ⟨S512x4096, .i32⟩
  | .hbm, ⟨105, _⟩ => ⟨S512x4096, .i32⟩
  | .hbm, ⟨106, _⟩ => ⟨S_, .f32⟩
  | .hbm, ⟨107, _⟩ => ⟨S512x4096, .f32⟩
  | .hbm, ⟨108, _⟩ => ⟨S512x4096, .f32⟩
  | .hbm, ⟨109, _⟩ => ⟨S512x4096, .i32⟩
  | .hbm, ⟨110, _⟩ => ⟨S512x4096, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S512x4096, .i32⟩
  | .hbm, ⟨115, _⟩ => ⟨S512x4096, .i32⟩
  | .hbm, ⟨116, _⟩ => ⟨S_, .i32⟩
  | .hbm, ⟨117, _⟩ => ⟨S512x4096, .i32⟩
  | .hbm, ⟨118, _⟩ => ⟨S512x4096, .i32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_cst_5 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v19 : Ref sig .tc := ⟨.hbm, 43, rfl⟩
abbrev main_cst_6 : Ref sig .tc := ⟨.hbm, 44, rfl⟩
abbrev main_v20 : Ref sig .tc := ⟨.hbm, 45, rfl⟩
abbrev main_v21 : Ref sig .tc := ⟨.hbm, 46, rfl⟩
abbrev main_cst_7 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_v30 : Ref sig .tc := ⟨.hbm, 58, rfl⟩
abbrev main_cst_10 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_11 : Ref sig .tc := ⟨.hbm, 63, rfl⟩
abbrev main_v34 : Ref sig .tc := ⟨.hbm, 64, rfl⟩
abbrev main_v35 : Ref sig .tc := ⟨.hbm, 65, rfl⟩
abbrev main_cst_12 : Ref sig .tc := ⟨.hbm, 66, rfl⟩
abbrev main_call3_v0 : Ref sig .tc := ⟨.hbm, 67, rfl⟩
abbrev main_v36 : Ref sig .tc := ⟨.hbm, 68, rfl⟩
abbrev main_cst_13 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_14 : Ref sig .tc := ⟨.hbm, 73, rfl⟩
abbrev main_v40 : Ref sig .tc := ⟨.hbm, 74, rfl⟩
abbrev main_v41 : Ref sig .tc := ⟨.hbm, 75, rfl⟩
abbrev main_cst_15 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_16 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_18 : Ref sig .tc := ⟨.hbm, 88, rfl⟩
abbrev main_v51 : Ref sig .tc := ⟨.hbm, 89, rfl⟩
abbrev main_v52 : Ref sig .tc := ⟨.hbm, 90, rfl⟩
abbrev main_cst_19 : Ref sig .tc := ⟨.hbm, 91, rfl⟩
abbrev main_cst_20 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_21 : Ref sig .tc := ⟨.hbm, 96, rfl⟩
abbrev main_v56 : Ref sig .tc := ⟨.hbm, 97, rfl⟩
abbrev main_v57 : Ref sig .tc := ⟨.hbm, 98, rfl⟩
abbrev main_cst_22 : Ref sig .tc := ⟨.hbm, 99, rfl⟩
abbrev main_call4_v0 : Ref sig .tc := ⟨.hbm, 100, rfl⟩
abbrev main_call4_v1 : Ref sig .tc := ⟨.hbm, 101, rfl⟩
abbrev main_v58 : Ref sig .tc := ⟨.hbm, 102, rfl⟩
abbrev main_c_23 : Ref sig .tc := ⟨.hbm, 103, rfl⟩
abbrev main_v59 : Ref sig .tc := ⟨.hbm, 104, rfl⟩
abbrev main_v60 : Ref sig .tc := ⟨.hbm, 105, rfl⟩
abbrev main_cst_24 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_c_25 : Ref sig .tc := ⟨.hbm, 111, rfl⟩
abbrev main_c_26 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v65 : Ref sig .tc := ⟨.hbm, 118, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S512x4096 : S_.BroadcastsInDim S512x4096 (![] : Fin 0 → Fin S512x4096.rank)
  dot_S512x2048_S2048x4096_S512x4096_1_0_0_1_n_n_wf : DotDims.WF S512x2048 S2048x4096 S512x4096 [1] [0] [0] [1] [] []
  dot_S512x4096_S4096x4096_S512x4096_1_0_0_1_n_n_wf : DotDims.WF S512x4096 S4096x4096 S512x4096 [1] [0] [0] [1] [] []

variable [Facts₀]

def dot_S512x2048_S2048x4096_S512x4096_1_0_0_1_n_n : DotDims S512x2048 S2048x4096 S512x4096 where
  lhsContracting := [1]
  rhsContracting := [0]
  lhsNonContracting := [0]
  rhsNonContracting := [1]
  lhsBatch := []
  rhsBatch := []
  wf := dot_S512x2048_S2048x4096_S512x4096_1_0_0_1_n_n_wf
def dot_S512x4096_S4096x4096_S512x4096_1_0_0_1_n_n : DotDims S512x4096 S4096x4096 S512x4096 where
  lhsContracting := [1]
  rhsContracting := [0]
  lhsNonContracting := [0]
  rhsNonContracting := [1]
  lhsBatch := []
  rhsBatch := []
  wf := dot_S512x4096_S4096x4096_S512x4096_1_0_0_1_n_n_wf

class Facts : Prop extends Facts₀ where

variable [Facts]
-- ==== Proof.KernelBody.lean ====
/-
  The body of the spiking-neuron step kernel at one grid point, as a separation-logic triple.

  At a grid point the body reads eight staging buffers (the whole input activations, one column tile of the
  input weights, the whole previous-spike array, one column tile of the recurrent weights, and the column
  tiles of the membrane voltage, the adaptation current, the previous spikes and the refractory counters)
  and overwrites four (the tiles of the new voltage, new spikes, new adaptation current and new refractory
  counters).  Each output buffer ends holding one whole-buffer store whose value is a pure function of the
  eight buffers read; the inputs are left as found.
-/
import proofs.«148327_j80693845557793_1_alg».proof.Proof.Gen.Kernel.Launch
import proofs.«148327_j80693845557793_1_alg».proof.Proof.Gen.Kernel.Skeleton
import proofs.«148327_j80693845557793_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (when it is
    not fetched the block index has not moved), for any proof data whose array is the entry contents and whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store covers its whole buffer -/

abbrev rX : Rect S512x2048 := Rect.unit (s := S512x2048) ![0, 0] S512x2048.size inb_S512x2048_S512x2048_0_0
abbrev rI : Rect S2048x256 := Rect.unit (s := S2048x256) ![0, 0] S2048x256.size inb_S2048x256_S2048x256_0_0
abbrev rZ : Rect S512x4096 := Rect.unit (s := S512x4096) ![0, 0] S512x4096.size inb_S512x4096_S512x4096_0_0
abbrev rR : Rect S4096x256 := Rect.unit (s := S4096x256) ![0, 0] S4096x256.size inb_S4096x256_S4096x256_0_0
abbrev rT : Rect S512x256 := Rect.unit (s := S512x256) ![0, 0] S512x256.size inb_S512x256_S512x256_0_0

/-! ## What the body leaves in each output buffer -/

/-- The synaptic current of the tile: both matrix products of the point, added. -/
def curAt (i : grid0.Coords) (x0 : Vec F S512x2048 .f32) (x1 : Vec F S2048x256 .f32) (x2 : Vec F S512x4096 .f32) (x3 : Vec F S4096x256 .f32) : FVec F S512x256 .f32 :=
  k0_pay2 i (View.ld x3 rR) (View.ld x0 rX) (View.ld x1 rI) (View.ld x2 rZ)

/-- The new membrane voltage's buffer. -/
def out0_8 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay5 (k0_pay2 i (View.ld x3 rR) (View.ld x0 rX) (View.ld x1 rI) (View.ld x2 rZ)) (View.ld x4 rT) (View.ld x5 rT) (View.ld x6 rT) (k0_pay3 (View.ld x4 rT)) (k0_pay4 (View.ld x4 rT))⟩]
/-- The new spikes' buffer. -/
def out0_9 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay7 (k0_pay2 i (View.ld x3 rR) (View.ld x0 rX) (View.ld x1 rI) (View.ld x2 rZ)) (View.ld x4 rT) (View.ld x5 rT) (View.ld x6 rT) (View.ld x7 rT) (k0_pay3 (View.ld x4 rT)) (k0_pay4 (View.ld x4 rT))⟩]
/-- The new adaptation current's buffer. -/
def out0_10 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay6 (View.ld x4 rT) (View.ld x5 rT) (View.ld x6 rT)⟩]
/-- The new refractory counters' buffer. -/
def out0_11 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .i32 :=
  View.canon [⟨rT, k0_pay1 (k0_pay7 (k0_pay2 i (View.ld x3 rR) (View.ld x0 rX) (View.ld x1 rI) (View.ld x2 rZ)) (View.ld x4 rT) (View.ld x5 rT) (View.ld x6 rT) (View.ld x7 rT) (k0_pay3 (View.ld x4 rT)) (k0_pay4 (View.ld x4 rT))) (k0_pay8 (View.ld x7 rT))⟩]

/-- One whole-buffer store covers the buffer. -/
theorem coverF (p0 : Vec F S512x256 .f32) (y : S512x256.Idx) :
    ∃ pc ∈ ([⟨rT, p0⟩] : List (View.Piece (Elt F) S512x256 .f32)), y ∈ pc.1.set :=
  View.cover_of_tiled [⟨rT, p0⟩] S512x256.size (by rfl) y
theorem coverI (p0 : Vec F S512x256 .i32) (y : S512x256.Idx) :
    ∃ pc ∈ ([⟨rT, p0⟩] : List (View.Piece (Elt F) S512x256 .i32)), y ∈ pc.1.set :=
  View.cover_of_tiled [⟨rT, p0⟩] S512x256.size (by rfl) y

/-! ## The body's triple -/

set_option maxHeartbeats 4000000 in
/-- The body on whole staging memrefs, the inputs' at read contents and the outputs' at anything, runs to the
    continuation holding the inputs' as they were and each output's at its whole-buffer store. -/
theorem sound_kernel (c : Dev nD) (E : Set ℕ) (i : grid0.Coords) (arg1 : Memref sig .tc .vmem S512x2048 .f32) (harg1 : arg1.IsWhole) (arg2 : Memref sig .tc .vmem S2048x256 .f32) (harg2 : arg2.IsWhole) (arg3 : Memref sig .tc .vmem S512x4096 .f32) (harg3 : arg3.IsWhole) (arg4 : Memref sig .tc .vmem S4096x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .i32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .i32) (harg12 : arg12.IsWhole)
    (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 i x0 x1 x2 x3 x4 x5 x6 x7) ∗ owns (c : Thread nD τ) arg10 fullShare (out0_9 i x0 x1 x2 x3 x4 x5 x6 x7) ∗ owns (c : Thread nD τ) arg11 fullShare (out0_10 i x0 x1 x2 x3 x4 x5 x6 x7) ∗ owns (c : Thread nD τ) arg12 fullShare (out0_11 i x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverF _)
  isplitl [H9]
  · iexists _; isplitr
    swap; · iexact H9
    ipureintro
    try dsimp only
    exact View.read_writes_eq_canon _ _ _ (coverF _)
  isplitl [H10]
  · iexists _; isplitr
    swap; · iexact H10
    ipureintro
    try dsimp only
    exact View.read_writes_eq_canon _ _ _ (coverF _)
  iexists _; isplitr
  swap; · iexact H11
  ipureintro
  try dsimp only
  exact View.read_writes_eq_canon _ _ _ (coverI _)

end Cert.Kernel.Hand

end
-- ==== Proof.LibSharedFrame.lean ====
/-
  The frame run of a pipeline kernel that owns no semaphore and whose INPUT windows may read one array
  through several windows.

  When two input windows stage blocks of the same array, the array's full share cannot be handed whole to
  each of them; the proof data name the share each window holds (`Dat.q`), and the launch asks how the
  buffers behind the arrays, each held once at the full share, are dealt into the windows' shares at entry
  (`hsplit`).  Everything else is as for distinct arrays: the region's invariant is the core's scoped
  buffers that are no staging buffer, at some contents (the kernel's scratch: a body of this class may use it
  and need not describe it); the unscoped buffers that are no window's array bypass the region and are read
  back unchanged; each window's array ends at the contents the write-backs of the proof data leave
  (`Dat.arrAt … N`: an input its entry contents, an output overwritten block by block).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The region invariant of a kernel that carries nothing between points and draws no random bits: the
    core's scoped buffers that are no staging buffer, each at some contents. -/
abbrev ΦS {gr : Nat} {W : Nat} (win : Fin W → WinSpec sig gr) (c : Dev nD) : sProp 𝕄 :=
  scopedRest (Ix := Unit) (Name := ℕ) (U := UR sig nD τ) (Lvl := ℕ) (Val := Val) win c

/-- THE FRAME RUN when windows may share arrays: from any memory with zero counters every weakly fair
    execution of @main terminates, every window's array ends at `Dat.arrAt w N`, and every unscoped buffer
    that is no window's array ends as the region found it. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hΦ : ∀ c t, (dats p c).Φ t = ΦS (cfg).spec c) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => by
      rw [hΦ]
      iintro ⟨-, HR⟩
      iexact HR)
    (hout := fun c => by
      rw [hΦ]
      iintro HR
      isplitr; · iempintro
      iexact HR)
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end SharedFrame

end Pipeline

end Idealize.ShloMosaic

end
-- ==== Proof.KernelFrame.lean ====
/-
  The frame of the spiking-neuron step program: its run terminates without a fault and leaves the seven
  argument arrays as they were.

  The program is one pipelined region over sixteen column tiles.  The previous-spike array is staged twice: whole,
  for the recurrent matrix product, and tile by tile, for the pointwise update.  Both windows only read it, so
  each holds half of the array's share; every other array is held whole by its one window.  The proof data say
  that each input buffer holds its block at every point and each output buffer the body's whole-buffer store.
-/
import proofs.«148327_j80693845557793_1_alg».proof.Proof.KernelBody
import proofs.«148327_j80693845557793_1_alg».proof.Proof.LibSharedFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at a point each input's buffer at its block and each
    output's at the body's store over the input blocks; the invariant the core's scratch, untouched; nothing
    owed; the previous-spike array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (grid0.coords t) (iblk m c 0 t) (iblk m c 1 t) (iblk m c 2 t) (iblk m c 3 t) (iblk m c 4 t) (iblk m c 5 t) (iblk m c 6 t) (iblk m c 7 t)
    | ⟨9, _⟩ => out0_9 (grid0.coords t) (iblk m c 0 t) (iblk m c 1 t) (iblk m c 2 t) (iblk m c 3 t) (iblk m c 4 t) (iblk m c 5 t) (iblk m c 6 t) (iblk m c 7 t)
    | ⟨10, _⟩ => out0_10 (grid0.coords t) (iblk m c 0 t) (iblk m c 1 t) (iblk m c 2 t) (iblk m c 3 t) (iblk m c 4 t) (iblk m c 5 t) (iblk m c 6 t) (iblk m c 7 t)
    | ⟨11, _⟩ => out0_11 (grid0.coords t) (iblk m c 0 t) (iblk m c 1 t) (iblk m c 2 t) (iblk m c 3 t) (iblk m c 4 t) (iblk m c 5 t) (iblk m c 6 t) (iblk m c 7 t)
  Φ _ := Pipeline.ΦS spec0 c
  q w := match w with
    | ⟨2, _⟩ => fullShare.left
    | ⟨6, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (grid0.coords t) (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (grid0.coords t) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d
theorem before0_6 (c : Dev nD) (t : Fin cfg0.N) (d) : (dats m 0 c).before 6 t d = iblk m c 6 t :=
  before6_of m (dats m 0 c) (A_eq m c 6) (after0_6 m c) t d
theorem before0_7 (c : Dev nD) (t : Fin cfg0.N) (d) : (dats m 0 c).before 7 t d = iblk m c 7 t :=
  before7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The arrays' shares at entry -/

/-- The eleven distinct buffers behind the twelve windows' arrays, each whole at the full share, give every
    window its array at its share: the previous-spike array's full share splits into the two halves its two
    reading windows hold. -/
theorem arrBufs_listed (c : Dev nD) : (Pipeline.arrBufs spec0 c (V m c) : sProp 𝕄)
    = iprop((((c.tc : Thread nD τ).loc main_arg0) ↦{fullShare} V m c main_arg0) ∗ (((c.tc : Thread nD τ).loc main_arg5) ↦{fullShare} V m c main_arg5)
      ∗ (((c.tc : Thread nD τ).loc main_arg4) ↦{fullShare} V m c main_arg4) ∗ (((c.tc : Thread nD τ).loc main_arg6) ↦{fullShare} V m c main_arg6)
      ∗ (((c.tc : Thread nD τ).loc main_arg1) ↦{fullShare} V m c main_arg1) ∗ (((c.tc : Thread nD τ).loc main_arg3) ↦{fullShare} V m c main_arg3)
      ∗ (((c.tc : Thread nD τ).loc main_arg2) ↦{fullShare} V m c main_arg2) ∗ (((c.tc : Thread nD τ).loc main_v0_0) ↦{fullShare} V m c main_v0_0)
      ∗ (((c.tc : Thread nD τ).loc main_v0_1) ↦{fullShare} V m c main_v0_1) ∗ (((c.tc : Thread nD τ).loc main_v0_2) ↦{fullShare} V m c main_v0_2)
      ∗ (((c.tc : Thread nD τ).loc main_v0_3) ↦{fullShare} V m c main_v0_3)) := by
  unfold Pipeline.arrBufs
  rw [bigSep_eq_bigSepL_of_eq [main_arg0, main_arg5, main_arg4, main_arg6, main_arg1, main_arg3, main_arg2, main_v0_0, main_v0_1, main_v0_2, main_v0_3] (by decide) (by decide)]
  rfl

/-- The windows' arrays, each a whole buffer, at the shares the proof data name. -/
theorem arrays_shares (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

theorem arrays_at_entry (c : Dev nD) :
    (Pipeline.arrBufs spec0 c (V m c) : sProp 𝕄) ⊢ (dats m 0 c).arrays ((dats m 0 c).arrAt · 0) := by
  rw [arrBufs_listed, arrays_shares, bigSep_W0]
  iintro ⟨Ha0, Ha5, Ha4, Ha6, Ha1, Ha3, Ha2, Hr0, Hr1, Hr2, Hr3⟩
  ihave Ha4 := (pointsTo_share (PosShare.mem_left_op_right fullShare)).1 $$ Ha4
  icases Ha4 with ⟨Ha4l, Ha4r⟩
  isplitl [Ha0]; · iexact Ha0
  isplitl [Ha5]; · iexact Ha5
  isplitl [Ha4l]; · iexact Ha4l
  isplitl [Ha6]; · iexact Ha6
  isplitl [Ha1]; · iexact Ha1
  isplitl [Ha3]; · iexact Ha3
  isplitl [Ha4r]; · iexact Ha4r
  isplitl [Ha2]; · iexact Ha2
  isplitl [Hr0]; · iexact Hr0
  isplitl [Hr1]; · iexact Hr1
  isplitl [Hr2]; · iexact Hr2
  iexact Hr3

/-! ## The run and the frame -/

set_option backward.isDefEq.respectTransparency.types false in
/-- Every weakly fair execution of the program terminates; every window's array ends at what the write-backs
    of the proof data leave, and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_at_entry m) (hΦ := fun _ _ => rfl)

/-- The frame: the run ends with the seven argument arrays unchanged (each is an input window's array, and an
    input's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have hA := A_eq m
    let dats := dats m
    ⟨((h c).1 0).trans (((dats 0 c).arrAt_in 0 rfl _).trans ((hA c 0).trans rfl)),
      ((h c).1 4).trans (((dats 0 c).arrAt_in 4 rfl _).trans ((hA c 4).trans rfl)),
      ((h c).1 7).trans (((dats 0 c).arrAt_in 7 rfl _).trans ((hA c 7).trans rfl)),
      ((h c).1 5).trans (((dats 0 c).arrAt_in 5 rfl _).trans ((hA c 5).trans rfl)),
      ((h c).1 2).trans (((dats 0 c).arrAt_in 2 rfl _).trans ((hA c 2).trans rfl)),
      ((h c).1 1).trans (((dats 0 c).arrAt_in 1 rfl _).trans ((hA c 1).trans rfl)),
      ((h c).1 3).trans (((dats 0 c).arrAt_in 3 rfl _).trans ((hA c 3).trans rfl))⟩) (run_main m ρ)

end Cert.Kernel.Hand

end
-- ==== Proof.KernelIdealBody.lean ====
/-
  The body of the spiking-neuron step kernel at one grid point, as a separation-logic triple.

  At a grid point the body reads eight staging buffers (the whole input activations, one column tile of the
  input weights, the whole previous-spike array, one column tile of the recurrent weights, and the column
  tiles of the membrane voltage, the adaptation current, the previous spikes and the refractory counters)
  and overwrites four (the tiles of the new voltage, new spikes, new adaptation current and new refractory
  counters).  Each output buffer ends holding one whole-buffer store whose value is a pure function of the
  eight buffers read; the inputs are left as found.
-/
import proofs.«148327_j80693845557793_1_alg».proof.Proof.Gen.KernelIdeal.Launch
import proofs.«148327_j80693845557793_1_alg».proof.Proof.Gen.KernelIdeal.Skeleton
import proofs.«148327_j80693845557793_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- A core's buffers when the region is entered: as launched (the program is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (when it is
    not fetched the block index has not moved), for any proof data whose array is the entry contents and whose
    body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: every load and store covers its whole buffer -/

abbrev rX : Rect S512x2048 := Rect.unit (s := S512x2048) ![0, 0] S512x2048.size inb_S512x2048_S512x2048_0_0
abbrev rI : Rect S2048x256 := Rect.unit (s := S2048x256) ![0, 0] S2048x256.size inb_S2048x256_S2048x256_0_0
abbrev rZ : Rect S512x4096 := Rect.unit (s := S512x4096) ![0, 0] S512x4096.size inb_S512x4096_S512x4096_0_0
abbrev rR : Rect S4096x256 := Rect.unit (s := S4096x256) ![0, 0] S4096x256.size inb_S4096x256_S4096x256_0_0
abbrev rT : Rect S512x256 := Rect.unit (s := S512x256) ![0, 0] S512x256.size inb_S512x256_S512x256_0_0

/-! ## What the body leaves in each output buffer -/

/-- The synaptic current of the tile: both matrix products of the point, added. -/
def curAt (i : grid0.Coords) (x0 : Vec F S512x2048 .f32) (x1 : Vec F S2048x256 .f32) (x2 : Vec F S512x4096 .f32) (x3 : Vec F S4096x256 .f32) : FVec F S512x256 .f32 :=
  k0_pay2 i (View.ld x3 rR) (View.ld x0 rX) (View.ld x1 rI) (View.ld x2 rZ)

/-- The new membrane voltage's buffer. -/
def out0_8 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay5 (k0_pay2 i (View.ld x3 rR) (View.ld x0 rX) (View.ld x1 rI) (View.ld x2 rZ)) (View.ld x4 rT) (View.ld x5 rT) (View.ld x6 rT) (k0_pay3 (View.ld x4 rT)) (k0_pay4 (View.ld x4 rT))⟩]
/-- The new spikes' buffer. -/
def out0_9 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay7 (k0_pay2 i (View.ld x3 rR) (View.ld x0 rX) (View.ld x1 rI) (View.ld x2 rZ)) (View.ld x4 rT) (View.ld x5 rT) (View.ld x6 rT) (View.ld x7 rT) (k0_pay3 (View.ld x4 rT)) (k0_pay4 (View.ld x4 rT))⟩]
/-- The new adaptation current's buffer. -/
def out0_10 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .f32 :=
  View.canon [⟨rT, k0_pay6 (View.ld x4 rT) (View.ld x5 rT) (View.ld x6 rT)⟩]
/-- The new refractory counters' buffer. -/
def out0_11 (i : grid0.Coords) (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) : Vec F S512x256 .i32 :=
  View.canon [⟨rT, k0_pay1 (k0_pay7 (k0_pay2 i (View.ld x3 rR) (View.ld x0 rX) (View.ld x1 rI) (View.ld x2 rZ)) (View.ld x4 rT) (View.ld x5 rT) (View.ld x6 rT) (View.ld x7 rT) (k0_pay3 (View.ld x4 rT)) (k0_pay4 (View.ld x4 rT))) (k0_pay8 (View.ld x7 rT))⟩]

/-- One whole-buffer store covers the buffer. -/
theorem coverF (p0 : Vec F S512x256 .f32) (y : S512x256.Idx) :
    ∃ pc ∈ ([⟨rT, p0⟩] : List (View.Piece (Elt F) S512x256 .f32)), y ∈ pc.1.set :=
  View.cover_of_tiled [⟨rT, p0⟩] S512x256.size (by rfl) y
theorem coverI (p0 : Vec F S512x256 .i32) (y : S512x256.Idx) :
    ∃ pc ∈ ([⟨rT, p0⟩] : List (View.Piece (Elt F) S512x256 .i32)), y ∈ pc.1.set :=
  View.cover_of_tiled [⟨rT, p0⟩] S512x256.size (by rfl) y

/-! ## The body's triple -/

set_option maxHeartbeats 4000000 in
/-- The body on whole staging memrefs, the inputs' at read contents and the outputs' at anything, runs to the
    continuation holding the inputs' as they were and each output's at its whole-buffer store. -/
theorem sound_kernel (c : Dev nD) (E : Set ℕ) (i : grid0.Coords) (arg1 : Memref sig .tc .vmem S512x2048 .f32) (harg1 : arg1.IsWhole) (arg2 : Memref sig .tc .vmem S2048x256 .f32) (harg2 : arg2.IsWhole) (arg3 : Memref sig .tc .vmem S512x4096 .f32) (harg3 : arg3.IsWhole) (arg4 : Memref sig .tc .vmem S4096x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .i32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .i32) (harg12 : arg12.IsWhole)
    (x0 : Vec F S512x2048 .f32) (x1 : Vec F S2048x256 .f32) (x2 : Vec F S512x4096 .f32) (x3 : Vec F S4096x256 .f32) (x4 : Vec F S512x256 .f32) (x5 : Vec F S512x256 .f32) (x6 : Vec F S512x256 .f32) (x7 : Vec F S512x256 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 i x0 x1 x2 x3 x4 x5 x6 x7) ∗ owns (c : Thread nD τ) arg10 fullShare (out0_9 i x0 x1 x2 x3 x4 x5 x6 x7) ∗ owns (c : Thread nD τ) arg11 fullShare (out0_10 i x0 x1 x2 x3 x4 x5 x6 x7) ∗ owns (c : Thread nD τ) arg12 fullShare (out0_11 i x0 x1 x2 x3 x4 x5 x6 x7)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverF _)
  isplitl [H9]
  · iexists _; isplitr
    swap; · iexact H9
    ipureintro
    try dsimp only
    exact View.read_writes_eq_canon _ _ _ (coverF _)
  isplitl [H10]
  · iexists _; isplitr
    swap; · iexact H10
    ipureintro
    try dsimp only
    exact View.read_writes_eq_canon _ _ _ (coverF _)
  iexists _; isplitr
  swap; · iexact H11
  ipureintro
  try dsimp only
  exact View.read_writes_eq_canon _ _ _ (coverI _)

end Cert.KernelIdeal.Hand

end
-- ==== Proof.KernelIdealFrame.lean ====
/-
  The frame of the spiking-neuron step program: its run terminates without a fault and leaves the seven
  argument arrays as they were.

  The program is one pipelined region over sixteen column tiles.  The previous-spike array is staged twice: whole,
  for the recurrent matrix product, and tile by tile, for the pointwise update.  Both windows only read it, so
  each holds half of the array's share; every other array is held whole by its one window.  The proof data say
  that each input buffer holds its block at every point and each output buffer the body's whole-buffer store.
-/
import proofs.«148327_j80693845557793_1_alg».proof.Proof.KernelIdealBody
import proofs.«148327_j80693845557793_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The arrays as the region finds them; after the body at a point each input's buffer at its block and each
    output's at the body's store over the input blocks; the invariant the core's scratch, untouched; nothing
    owed; the previous-spike array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (grid0.coords t) (iblk m c 0 t) (iblk m c 1 t) (iblk m c 2 t) (iblk m c 3 t) (iblk m c 4 t) (iblk m c 5 t) (iblk m c 6 t) (iblk m c 7 t)
    | ⟨9, _⟩ => out0_9 (grid0.coords t) (iblk m c 0 t) (iblk m c 1 t) (iblk m c 2 t) (iblk m c 3 t) (iblk m c 4 t) (iblk m c 5 t) (iblk m c 6 t) (iblk m c 7 t)
    | ⟨10, _⟩ => out0_10 (grid0.coords t) (iblk m c 0 t) (iblk m c 1 t) (iblk m c 2 t) (iblk m c 3 t) (iblk m c 4 t) (iblk m c 5 t) (iblk m c 6 t) (iblk m c 7 t)
    | ⟨11, _⟩ => out0_11 (grid0.coords t) (iblk m c 0 t) (iblk m c 1 t) (iblk m c 2 t) (iblk m c 3 t) (iblk m c 4 t) (iblk m c 5 t) (iblk m c 6 t) (iblk m c 7 t)
  Φ _ := Pipeline.ΦS spec0 c
  q w := match w with
    | ⟨2, _⟩ => fullShare.left
    | ⟨6, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (grid0.coords t) (iblk m c 0 t) (iblk m c 1 t) (iblk m c 2 t) (iblk m c 3 t) (iblk m c 4 t) (iblk m c 5 t) (iblk m c 6 t) (iblk m c 7 t) := by dsimp only [dats]
theorem after0_9 (c : Dev nD) (t : Fin cfg0.N) : (dats m 0 c).after 9 t = out0_9 (grid0.coords t) (iblk m c 0 t) (iblk m c 1 t) (iblk m c 2 t) (iblk m c 3 t) (iblk m c 4 t) (iblk m c 5 t) (iblk m c 6 t) (iblk m c 7 t) := by dsimp only [dats]
theorem after0_10 (c : Dev nD) (t : Fin cfg0.N) : (dats m 0 c).after 10 t = out0_10 (grid0.coords t) (iblk m c 0 t) (iblk m c 1 t) (iblk m c 2 t) (iblk m c 3 t) (iblk m c 4 t) (iblk m c 5 t) (iblk m c 6 t) (iblk m c 7 t) := by dsimp only [dats]
theorem after0_11 (c : Dev nD) (t : Fin cfg0.N) : (dats m 0 c).after 11 t = out0_11 (grid0.coords t) (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d
theorem before0_6 (c : Dev nD) (t : Fin cfg0.N) (d) : (dats m 0 c).before 6 t d = iblk m c 6 t :=
  before6_of m (dats m 0 c) (A_eq m c 6) (after0_6 m c) t d
theorem before0_7 (c : Dev nD) (t : Fin cfg0.N) (d) : (dats m 0 c).before 7 t d = iblk m c 7 t :=
  before7_of m (dats m 0 c) (A_eq m c 7) (after0_7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The arrays' shares at entry -/

/-- The eleven distinct buffers behind the twelve windows' arrays, each whole at the full share, give every
    window its array at its share: the previous-spike array's full share splits into the two halves its two
    reading windows hold. -/
theorem arrBufs_listed (c : Dev nD) : (Pipeline.arrBufs spec0 c (V m c) : sProp 𝕄)
    = iprop((((c.tc : Thread nD τ).loc main_arg0) ↦{fullShare} V m c main_arg0) ∗ (((c.tc : Thread nD τ).loc main_arg5) ↦{fullShare} V m c main_arg5)
      ∗ (((c.tc : Thread nD τ).loc main_arg4) ↦{fullShare} V m c main_arg4) ∗ (((c.tc : Thread nD τ).loc main_arg6) ↦{fullShare} V m c main_arg6)
      ∗ (((c.tc : Thread nD τ).loc main_arg1) ↦{fullShare} V m c main_arg1) ∗ (((c.tc : Thread nD τ).loc main_arg3) ↦{fullShare} V m c main_arg3)
      ∗ (((c.tc : Thread nD τ).loc main_arg2) ↦{fullShare} V m c main_arg2) ∗ (((c.tc : Thread nD τ).loc main_v0_0) ↦{fullShare} V m c main_v0_0)
      ∗ (((c.tc : Thread nD τ).loc main_v0_1) ↦{fullShare} V m c main_v0_1) ∗ (((c.tc : Thread nD τ).loc main_v0_2) ↦{fullShare} V m c main_v0_2)
      ∗ (((c.tc : Thread nD τ).loc main_v0_3) ↦{fullShare} V m c main_v0_3)) := by
  unfold Pipeline.arrBufs
  rw [bigSep_eq_bigSepL_of_eq [main_arg0, main_arg5, main_arg4, main_arg6, main_arg1, main_arg3, main_arg2, main_v0_0, main_v0_1, main_v0_2, main_v0_3] (by decide) (by decide)]
  rfl

/-- The windows' arrays, each a whole buffer, at the shares the proof data name. -/
theorem arrays_shares (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

theorem arrays_at_entry (c : Dev nD) :
    (Pipeline.arrBufs spec0 c (V m c) : sProp 𝕄) ⊢ (dats m 0 c).arrays ((dats m 0 c).arrAt · 0) := by
  rw [arrBufs_listed, arrays_shares, bigSep_W0]
  iintro ⟨Ha0, Ha5, Ha4, Ha6, Ha1, Ha3, Ha2, Hr0, Hr1, Hr2, Hr3⟩
  ihave Ha4 := (pointsTo_share (PosShare.mem_left_op_right fullShare)).1 $$ Ha4
  icases Ha4 with ⟨Ha4l, Ha4r⟩
  isplitl [Ha0]; · iexact Ha0
  isplitl [Ha5]; · iexact Ha5
  isplitl [Ha4l]; · iexact Ha4l
  isplitl [Ha6]; · iexact Ha6
  isplitl [Ha1]; · iexact Ha1
  isplitl [Ha3]; · iexact Ha3
  isplitl [Ha4r]; · iexact Ha4r
  isplitl [Ha2]; · iexact Ha2
  isplitl [Hr0]; · iexact Hr0
  isplitl [Hr1]; · iexact Hr1
  isplitl [Hr2]; · iexact Hr2
  iexact Hr3

/-! ## The run and the frame -/

set_option backward.isDefEq.respectTransparency.types false in
/-- Every weakly fair execution of the program terminates; every window's array ends at what the write-backs
    of the proof data leave, and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_at_entry m) (hΦ := fun _ _ => rfl)

/-- The frame: the run ends with the seven argument arrays unchanged (each is an input window's array, and an
    input's array is never written back). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    have hA := A_eq m
    let dats := dats m
    ⟨((h c).1 0).trans (((dats 0 c).arrAt_in 0 rfl _).trans ((hA c 0).trans rfl)),
      ((h c).1 4).trans (((dats 0 c).arrAt_in 4 rfl _).trans ((hA c 4).trans rfl)),
      ((h c).1 7).trans (((dats 0 c).arrAt_in 7 rfl _).trans ((hA c 7).trans rfl)),
      ((h c).1 5).trans (((dats 0 c).arrAt_in 5 rfl _).trans ((hA c 5).trans rfl)),
      ((h c).1 2).trans (((dats 0 c).arrAt_in 2 rfl _).trans ((hA c 2).trans rfl)),
      ((h c).1 1).trans (((dats 0 c).arrAt_in 1 rfl _).trans ((hA c 1).trans rfl)),
      ((h c).1 3).trans (((dats 0 c).arrAt_in 3 rfl _).trans ((hA c 3).trans rfl))⟩) (run_main m ρ)

end Cert.KernelIdeal.Hand

end
-- ==== Proof.Spec.lean ====
/-
  One step of a population of adaptive exponential integrate-and-fire neurons, as plain mathematics on the
  extended reals: the state of each of 4096 neurons, for each of 512 batch rows, is a membrane potential v, an
  adaptation current w, a spike indicator z and a refractory counter r. The input current of neuron n in row b is
  the contraction of the row's inputs with the input weights plus the contraction of the row's previous spikes with
  the recurrent weights, whose diagonal (a neuron's synapse onto itself) is masked to zero. From the current and the
  old state each neuron's new potential, adaptation, spike and counter follow by scalar formulas. The formulas are
  written in one fixed order of operations so that both programs compared against them can be read at an index and
  matched term by term; the constants are kept as the words the programs carry.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-! ## The constants, as the extended reals their 32-bit words denote -/

/-- The firing threshold (the word of -50.4). -/
abbrev cThr : EReal := Ideal.ofBits .f32 0xC249999A#32
/-- The resting and reset potential (the word of -70.6). -/
abbrev cEl : EReal := Ideal.ofBits .f32 0xC28D3333#32
/-- The word of 2: the slope factor of the exponential, and the refractory period. -/
abbrev cTwo : EReal := Ideal.ofBits .f32 0x40000000#32
/-- The lower clamp of the exponential term (the word of -1e6). -/
abbrev cLo : EReal := Ideal.ofBits .f32 0xC9742400#32
/-- The membrane capacitance, also the upper clamp of the exponential term (the word of 281). -/
abbrev cCap : EReal := Ideal.ofBits .f32 0x438C8000#32
/-- The leak rate of the potential per step. -/
abbrev cLeak : EReal := Ideal.ofBits .f32 0x3DDAA5CF#32
/-- The gain of the exponential term per step. -/
abbrev cGain : EReal := Ideal.ofBits .f32 0x3E5AA5CF#32
/-- The word of 1 (the time step). -/
abbrev cOne : EReal := Ideal.ofBits .f32 0x3F800000#32
/-- The word of 1/2: a previous spike indicator above it counts as a spike. -/
abbrev cHalf : EReal := Ideal.ofBits .f32 0x3F000000#32
/-- The decay rate of the adaptation current per step. -/
abbrev cDecay : EReal := Ideal.ofBits .f32 0x3BE38E39#32
/-- The coupling of the potential into the adaptation current per step. -/
abbrev cCouple : EReal := Ideal.ofBits .f32 0x3CE38E39#32
/-- The jump of the adaptation current at a spike. -/
abbrev cJump : EReal := Ideal.ofBits .f32 0x3DA4DD2F#32
/-- The scale the distance to threshold is divided by (the word of 20.2). -/
abbrev cScale : EReal := Ideal.ofBits .f32 0x41A1999A#32
/-- The zero word. -/
abbrev cZero : EReal := Ideal.ofBits .f32 0x00000000#32

/-! ## The input current -/

/-- The current into neuron `n` of row `b`: inputs times input weights, plus previous spikes times the recurrent
    weights with the diagonal removed. -/
def cur (x : (⟨2, ![512, 2048]⟩ : Shape).Idx → EReal) (iw : (⟨2, ![2048, 4096]⟩ : Shape).Idx → EReal)
    (z : (⟨2, ![512, 4096]⟩ : Shape).Idx → EReal) (rw : (⟨2, ![4096, 4096]⟩ : Shape).Idx → EReal)
    (b : Fin 512) (n : Fin 4096) : EReal :=
  (∑ k : Fin 2048, x (ix2 b k) * iw (ix2 k n))
    + ∑ k : Fin 4096, z (ix2 b k) * (if k.val = n.val then 0 else rw (ix2 k n))

/-! ## The scalar step -/

/-- The clamped exponential term of the potential's update: `min cap (max lo (exp ((v - thr) / 2)))`. -/
def expTerm (v : EReal) : EReal :=
  min cCap (max cLo (Ideal.exp (Ideal.div (v - cThr) cTwo)))

/-- The new potential: the reset value after a spike, else the leaky, exponentially driven update with the net current
    (input current less adaptation) through the capacitance. -/
def newV (cur v w z : EReal) : EReal :=
  Scalar.select (Ideal.cmp .ogt z cHalf) cEl
    (((v - cLeak * (v - cEl)) + cGain * expTerm v) + Ideal.div ((cur - w) * cOne) cCap)

/-- The new adaptation current: decay, coupling to the potential, and a jump at a previous spike. -/
def newW (v w z : EReal) : EReal :=
  ((w - cDecay * w) + cCouple * (v - cEl)) + cJump * z

/-- The spike bit: the scaled signed distance of the new potential above threshold is positive. -/
def spikeBit (cur v w z : EReal) : BitVec 1 :=
  Ideal.cmp .ogt (Ideal.div (cZero - (cThr - newV cur v w z)) cScale) cZero

/-- The new spike indicator: none while refractory, else the spike bit as a number. -/
def newZ (cur v w z : EReal) (r : BitVec 32) : EReal :=
  Scalar.select (IntOp.cmpi .sgt r 0#32) cZero
    ((((spikeBit cur v w z).setWidth 32).toInt : ℝ) : EReal)

/-- The new refractory counter: one less, plus the refractory period at a spike, kept within `[0, 2]` (signed). -/
def newR (cur v w z : EReal) (r : BitVec 32) : BitVec 32 :=
  IntOp.minsi 2#32 (IntOp.maxsi 0#32
    (IntOp.addi (IntOp.subi r 1#32) (Ideal.fptosi 32 (newZ cur v w z r * cTwo))))

/-! ## The four results as whole arrays -/

section Arrays
variable (x : (⟨2, ![512, 2048]⟩ : Shape).Idx → EReal) (v : (⟨2, ![512, 4096]⟩ : Shape).Idx → EReal)
  (r : (⟨2, ![512, 4096]⟩ : Shape).Idx → BitVec 32) (w z : (⟨2, ![512, 4096]⟩ : Shape).Idx → EReal)
  (iw : (⟨2, ![2048, 4096]⟩ : Shape).Idx → EReal) (rw : (⟨2, ![4096, 4096]⟩ : Shape).Idx → EReal)

/-- The new potentials. -/
def GV : (⟨2, ![512, 4096]⟩ : Shape).Idx → EReal :=
  fun i => newV (cur x iw z rw (i 0) (i 1)) (v i) (w i) (z i)
/-- The new spike indicators. -/
def GZ : (⟨2, ![512, 4096]⟩ : Shape).Idx → EReal :=
  fun i => newZ (cur x iw z rw (i 0) (i 1)) (v i) (w i) (z i) (r i)
/-- The new adaptation currents. -/
def GW : (⟨2, ![512, 4096]⟩ : Shape).Idx → EReal :=
  fun i => newW (v i) (w i) (z i)
/-- The new refractory counters. -/
def GR : (⟨2, ![512, 4096]⟩ : Shape).Idx → BitVec 32 :=
  fun i => newR (cur x iw z rw (i 0) (i 1)) (v i) (w i) (z i) (r i)

end Arrays

/-- A one-bit word widened to 32 bits and read signed is the bit read unsigned: both are 0 or 1. -/
theorem bit_toInt_eq_toNat (c : BitVec 1) : (((c.setWidth 32).toInt : ℝ) : EReal) = ((c.toNat : ℝ) : EReal) := by
  rcases BitVec.eq_zero_or_eq_one c with h | h <;> subst h <;> simp

end Cert.Spec

end
-- ==== Proof.KerStep.lean ====
/-
  The kernel's pointwise payloads read at one element. Once the input current of a neuron is given, the kernel
  computes the neuron's new potential, adaptation current, spike indicator and refractory counter by elementwise
  vector operations; at the extended reals each of them, read at an index, is the operation on the elements, so each
  payload at an index is the specification's scalar formula of the elements at that index, by unfolding alone.
-/
import proofs.«148327_j80693845557793_1_alg».proof.Proof.Gen.KernelIdeal.Skeleton
import proofs.«148327_j80693845557793_1_alg».proof.Proof.Spec
import Idealize.ShloMosaic.Lib.ValueIdx
import Idealize.ShloMosaic.PureOps.Ideal.Laws

noncomputable section

open Idealize.ShloMosaic Idealize.ShloMosaic.ValueIdx
open Cert.KernelIdeal Cert.KernelIdeal.Gen

namespace Cert.KernelIdeal.KVal

/-- The new adaptation current at an element: decay of the old one, coupling to the potential, jump at a spike. -/
theorem stepW_apply (X4 X5 X6 : Vec Ideal S512x256 .f32) (b : Fin 512) (c : Fin 256) :
    k0_pay6 X4 X5 X6 (ix2 b c) = Spec.newW (X4 (ix2 b c)) (X5 (ix2 b c)) (X6 (ix2 b c)) := rfl

/-- The new potential at an element, for any array of input currents `V18`: the reset value where the previous spike
    indicator exceeds one half, else the leaky exponential update driven by the net current. -/
theorem stepV_apply (V18 : FVec Ideal S512x256 .f32) (X4 X5 X6 : Vec Ideal S512x256 .f32) (b : Fin 512) (c : Fin 256) :
    k0_pay5 V18 X4 X5 X6 (k0_pay3 X4) (k0_pay4 X4) (ix2 b c)
      = Spec.newV (V18 (ix2 b c)) (X4 (ix2 b c)) (X5 (ix2 b c)) (X6 (ix2 b c)) := rfl

/-- The new spike indicator at an element: zero while the refractory counter is positive, else the bit "the new
    potential is above threshold" widened to a word and converted. -/
theorem stepZ_apply (V18 : FVec Ideal S512x256 .f32) (X4 X5 X6 : Vec Ideal S512x256 .f32) (X7 : Vec Ideal S512x256 .i32)
    (b : Fin 512) (c : Fin 256) :
    k0_pay7 V18 X4 X5 X6 X7 (k0_pay3 X4) (k0_pay4 X4) (ix2 b c)
      = Spec.newZ (V18 (ix2 b c)) (X4 (ix2 b c)) (X5 (ix2 b c)) (X6 (ix2 b c)) (X7 (ix2 b c)) := rfl

/-- The new refractory counter at an element: the old one less one plus twice the new spike indicator as an
    integer, clamped (signed) to between zero and two. -/
theorem stepR_apply (V18 : FVec Ideal S512x256 .f32) (X4 X5 X6 : Vec Ideal S512x256 .f32) (X7 : Vec Ideal S512x256 .i32)
    (b : Fin 512) (c : Fin 256) :
    k0_pay1 (k0_pay7 V18 X4 X5 X6 X7 (k0_pay3 X4) (k0_pay4 X4)) (k0_pay8 X7) (ix2 b c)
      = Spec.newR (V18 (ix2 b c)) (X4 (ix2 b c)) (X5 (ix2 b c)) (X6 (ix2 b c)) (X7 (ix2 b c)) := rfl

end Cert.KernelIdeal.KVal

end
-- ==== Proof.KerCur.lean ====
/-
  The kernel's input current of one column tile, read at one element. The kernel forms, for tile `t` of 256 neurons,
  the product of the inputs with the tile's input weights and the product of the previous spikes with the tile's
  recurrent weights, after replacing by zero every recurrent weight whose row number equals its column number in
  the whole matrix (column `c` of tile `t` is column `c + 256 t`). At the extended reals a matrix product into a zero
  accumulator is the plain sum of products over the contracted coordinate, a change of float format is the identity,
  and the mask's 32-bit comparison is the comparison of the natural numbers, every number involved being below 2^13.
-/
import proofs.«148327_j80693845557793_1_alg».proof.Proof.Gen.KernelIdeal.Skeleton
import proofs.«148327_j80693845557793_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx
open Cert.KernelIdeal Cert.KernelIdeal.Gen

namespace Cert.KernelIdeal.KVal

/-! ## The diagonal mask -/

/-- The mask's bit at row `kk` of the recurrent weights and column `cc` of tile `t`: the 32-bit row number equals the
    32-bit column number plus 256 times the tile number exactly when the natural numbers agree, all of them being far
    below `2 ^ 32`. -/
theorem mask_bit (kk cc t : Nat) (hk : kk < 4096) (hc : cc < 256) (ht : t < 16) :
    IntOp.cmpi .eq (BitVec.ofNat 32 kk) (IntOp.addi (BitVec.ofNat 32 cc) (Scalar.muli (BitVec.ofNat 32 t) 256#32))
      = if kk = cc + 256 * t then 1#1 else 0#1 := by
  have e : IntOp.addi (BitVec.ofNat 32 cc) (Scalar.muli (BitVec.ofNat 32 t) 256#32) = BitVec.ofNat 32 (cc + 256 * t) := by
    apply BitVec.eq_of_toNat_eq
    simp only [IntOp.addi, Scalar.muli, IntOp.muli, BitVec.toNat_add, BitVec.toNat_mul, BitVec.toNat_ofNat]
    omega
  rw [e]
  unfold IntOp.cmpi
  by_cases h : kk = cc + 256 * t
  · subst h; simp
  · rw [if_neg h]
    have hne : (BitVec.ofNat 32 kk == BitVec.ofNat 32 (cc + 256 * t)) = false := by
      rw [beq_eq_false_iff_ne]
      intro he
      have := congrArg BitVec.toNat he
      simp only [BitVec.toNat_ofNat] at this
      omega
    simp [hne]

/-- The recurrent weights of one column tile with the whole matrix's diagonal set to zero, as the kernel builds them:
    a select on "row number = column number + 256 · tile number". -/
def masked (i : grid0.Coords) (X3 : Vec Ideal S4096x256 .f32) : FVec Ideal S4096x256 .f32 :=
  select (cmpi .eq (iota .tc S4096x256 32 [0] iota_S4096x256_d0_w32)
      (addi (iota .tc S4096x256 32 [1] iota_S4096x256_d1_w32)
        (broadcast S4096x256 (Scalar.muli (BitVec.ofNat 32 (i 0).val) 256#32))))
    (broadcast S4096x256 (Scalar.ofBits (F := Ideal) .f32 0x00000000#32)) X3

/-- The masked weights at an element. -/
theorem masked_apply (i : grid0.Coords) (X3 : Vec Ideal S4096x256 .f32) (k : Fin 4096) (c : Fin 256) :
    masked i X3 (ix2 k c) = if k.val = c.val + 256 * (i 0).val then 0 else X3 (ix2 k c) := by
  show Scalar.select (IntOp.cmpi .eq (iota .tc S4096x256 32 [0] iota_S4096x256_d0_w32 (ix2 k c))
      (IntOp.addi (iota .tc S4096x256 32 [1] iota_S4096x256_d1_w32 (ix2 k c))
        (Scalar.muli (BitVec.ofNat 32 (i 0).val) 256#32)))
    (Ideal.ofBits .f32 0x00000000#32) (X3 (ix2 k c)) = _
  rw [iota_single_apply, iota_single_apply]
  show Scalar.select (IntOp.cmpi .eq (BitVec.ofNat 32 k.val)
      (IntOp.addi (BitVec.ofNat 32 c.val) (Scalar.muli (BitVec.ofNat 32 (i 0).val) 256#32))) _ _ = _
  rw [mask_bit _ _ _ k.isLt c.isLt (i 0).isLt, Ideal.ofBits_zero_f32]
  by_cases h : k.val = c.val + 256 * (i 0).val
  · rw [if_pos h, if_pos h]; exact select_one _ _
  · rw [if_neg h, if_neg h]; exact select_zero _ _

/-! ## The two contractions -/

/-- The inputs' contraction with the input weights: the left operand's row coordinate is the output's. -/
theorem lhs1_0 (j : S512x256.Idx) (q : dot_S512x2048_S2048x256_S512x256_1_0_0_1_n_n.contr.Idx) :
    (dot_S512x2048_S2048x256_S512x256_1_0_0_1_n_n.lhsIdx j q 0).val = (j 0).val := by
  unfold DotDims.lhsIdx
  rw [dif_neg (show ¬(0 : Fin S512x2048.rank) ∈ dot_S512x2048_S2048x256_S512x256_1_0_0_1_n_n.lhsBatch by decide),
    dif_pos (show (0 : Fin S512x2048.rank) ∈ dot_S512x2048_S2048x256_S512x256_1_0_0_1_n_n.lhsNonContracting by decide)]
  rfl
/-- The inputs' contraction with the input weights: the right operand's column coordinate is the output's. -/
theorem rhs1_1 (j : S512x256.Idx) (q : dot_S512x2048_S2048x256_S512x256_1_0_0_1_n_n.contr.Idx) :
    (dot_S512x2048_S2048x256_S512x256_1_0_0_1_n_n.rhsIdx j q 1).val = (j 1).val := by
  unfold DotDims.rhsIdx
  rw [dif_neg (show ¬(1 : Fin S2048x256.rank) ∈ dot_S512x2048_S2048x256_S512x256_1_0_0_1_n_n.rhsBatch by decide),
    dif_pos (show (1 : Fin S2048x256.rank) ∈ dot_S512x2048_S2048x256_S512x256_1_0_0_1_n_n.rhsNonContracting by decide)]
  rfl

/-- The inputs' contraction with the input weights into a zero accumulator, read at `(b, c)`: the plain sum over the contracted coordinate of the products
    of row `b` of the left operand with column `c` of the right one. -/
theorem matmul1_apply (A : FVec Ideal S512x2048 .bf16) (B : FVec Ideal S2048x256 .bf16) (b : Fin 512) (c : Fin 256) :
    FloatOps.matmul dot_S512x2048_S2048x256_S512x256_1_0_0_1_n_n none A B (constant S512x256 .f32 0x00000000#32) (ix2 b c)
      = ∑ k : Fin 2048, A (ix2 b k) * B (ix2 k c) := by
  rw [Ideal.matmul_constant_zero_apply,
    ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 b c)
      ((contrEquiv1 dot_S512x2048_S2048x256_S512x256_1_0_0_1_n_n 2048 rfl rfl).symm k) = ix2 b k :=
    funext fun a => Fin.ext (by
      match a with
      | ⟨0, _⟩ => exact lhs1_0 _ _
      | ⟨1, _⟩ => exact (dot_S512x2048_S2048x256_S512x256_1_0_0_1_n_n.lhsIdx_val_of_single rfl _ _).trans hk)
  have er : dot_S512x2048_S2048x256_S512x256_1_0_0_1_n_n.rhsIdx (ix2 b c)
      ((contrEquiv1 dot_S512x2048_S2048x256_S512x256_1_0_0_1_n_n 2048 rfl rfl).symm k) = ix2 k c :=
    funext fun a => Fin.ext (by
      match a with
      | ⟨0, _⟩ => exact (dot_S512x2048_S2048x256_S512x256_1_0_0_1_n_n.rhsIdx_val_of_single rfl _ _).trans hk
      | ⟨1, _⟩ => exact rhs1_1 _ _)
  rw [el, er]

/-- The previous spikes' contraction with the recurrent weights: the left operand's row coordinate is the output's. -/
theorem lhs2_0 (j : S512x256.Idx) (q : dot_S512x4096_S4096x256_S512x256_1_0_0_1_n_n.contr.Idx) :
    (dot_S512x4096_S4096x256_S512x256_1_0_0_1_n_n.lhsIdx j q 0).val = (j 0).val := by
  unfold DotDims.lhsIdx
  rw [dif_neg (show ¬(0 : Fin S512x4096.rank) ∈ dot_S512x4096_S4096x256_S512x256_1_0_0_1_n_n.lhsBatch by decide),
    dif_pos (show (0 : Fin S512x4096.rank) ∈ dot_S512x4096_S4096x256_S512x256_1_0_0_1_n_n.lhsNonContracting by decide)]
  rfl
/-- The previous spikes' contraction with the recurrent weights: the right operand's column coordinate is the output's. -/
theorem rhs2_1 (j : S512x256.Idx) (q : dot_S512x4096_S4096x256_S512x256_1_0_0_1_n_n.contr.Idx) :
    (dot_S512x4096_S4096x256_S512x256_1_0_0_1_n_n.rhsIdx j q 1).val = (j 1).val := by
  unfold DotDims.rhsIdx
  rw [dif_neg (show ¬(1 : Fin S4096x256.rank) ∈ dot_S512x4096_S4096x256_S512x256_1_0_0_1_n_n.rhsBatch by decide),
    dif_pos (show (1 : Fin S4096x256.rank) ∈ dot_S512x4096_S4096x256_S512x256_1_0_0_1_n_n.rhsNonContracting by decide)]
  rfl

/-- The previous spikes' contraction with the recurrent weights into a zero accumulator, read at `(b, c)`: the plain sum over the contracted coordinate of the products
    of row `b` of the left operand with column `c` of the right one. -/
theorem matmul2_apply (A : FVec Ideal S512x4096 .bf16) (B : FVec Ideal S4096x256 .bf16) (b : Fin 512) (c : Fin 256) :
    FloatOps.matmul dot_S512x4096_S4096x256_S512x256_1_0_0_1_n_n none A B (constant S512x256 .f32 0x00000000#32) (ix2 b c)
      = ∑ k : Fin 4096, A (ix2 b k) * B (ix2 k c) := by
  rw [Ideal.matmul_constant_zero_apply,
    ← Equiv.sum_comp (contrEquiv1 dot_S512x4096_S4096x256_S512x256_1_0_0_1_n_n 4096 rfl rfl).symm]
  refine Finset.sum_congr rfl fun k _ => ?_
  have hk := contrEquiv1_symm_val dot_S512x4096_S4096x256_S512x256_1_0_0_1_n_n 4096 rfl rfl k
  have el : dot_S512x4096_S4096x256_S512x256_1_0_0_1_n_n.lhsIdx (ix2 b c)
      ((contrEquiv1 dot_S512x4096_S4096x256_S512x256_1_0_0_1_n_n 4096 rfl rfl).symm k) = ix2 b k :=
    funext fun a => Fin.ext (by
      match a with
      | ⟨0, _⟩ => exact lhs2_0 _ _
      | ⟨1, _⟩ => exact (dot_S512x4096_S4096x256_S512x256_1_0_0_1_n_n.lhsIdx_val_of_single rfl _ _).trans hk)
  have er : dot_S512x4096_S4096x256_S512x256_1_0_0_1_n_n.rhsIdx (ix2 b c)
      ((contrEquiv1 dot_S512x4096_S4096x256_S512x256_1_0_0_1_n_n 4096 rfl rfl).symm k) = ix2 k c :=
    funext fun a => Fin.ext (by
      match a with
      | ⟨0, _⟩ => exact (dot_S512x4096_S4096x256_S512x256_1_0_0_1_n_n.rhsIdx_val_of_single rfl _ _).trans hk
      | ⟨1, _⟩ => exact rhs2_1 _ _)
  rw [el, er]

/-! ## The input current of one column tile -/

/-- The kernel's current payload at `(b, c)` of tile `i`: inputs times the tile's input weights, plus previous spikes
    times the tile's recurrent weights with the diagonal of the whole matrix removed. -/
theorem cur_apply (i : grid0.Coords) (X3 : Vec Ideal S4096x256 .f32) (X0 : Vec Ideal S512x2048 .f32)
    (X1 : Vec Ideal S2048x256 .f32) (X2 : Vec Ideal S512x4096 .f32) (b : Fin 512) (c : Fin 256) :
    k0_pay2 i X3 X0 X1 X2 (ix2 b c)
      = (∑ k : Fin 2048, X0 (ix2 b k) * X1 (ix2 k c))
        + ∑ k : Fin 4096, X2 (ix2 b k) * (if k.val = c.val + 256 * (i 0).val then 0 else X3 (ix2 k c)) := by
  have h1 := matmul1_apply (truncf .bf16 X0 bitsLt_bf16_f32) (truncf .bf16 X1 bitsLt_bf16_f32) b c
  have h2 := matmul2_apply (truncf .bf16 X2 bitsLt_bf16_f32) (truncf .bf16 (masked i X3) bitsLt_bf16_f32) b c
  refine (congrArg₂ (· + ·) h1 h2).trans ?_
  refine congrArg₂ (· + ·) rfl (Finset.sum_congr rfl fun k _ => ?_)
  show X2 (ix2 b k) * masked i X3 (ix2 k c) = _
  rw [masked_apply]

end Cert.KernelIdeal.KVal

end
-- ==== Proof.KerCurSpec.lean ====
/-
  The kernel's input current of a column tile against the specified current of the whole arrays. Tile `t` reads all of
  the inputs and of the previous spikes and columns `256 t … 256 t + 255` of the two weight matrices; column `c` of the
  tile is neuron `n = c + 256 t`, and the kernel's diagonal mask "row = c + 256 t" is the specification's "row = n".
-/
import proofs.«148327_j80693845557793_1_alg».proof.Proof.KerCur

noncomputable section

open scoped BigOperators
open Idealize.ShloMosaic Idealize.ShloMosaic.ValueIdx
open Cert.KernelIdeal Cert.KernelIdeal.Gen

namespace Cert.KernelIdeal.KVal

/-- The same against the specification's current of the whole arrays: when the blocks the tile reads are row `b` of the
    inputs and of the previous spikes and column `n = c + 256 t` of the two weight matrices, the payload at `(b, c)` is
    the specified current of neuron `n` in row `b`. -/
theorem cur_eq_spec (i : grid0.Coords)
    (x : (⟨2, ![512, 2048]⟩ : Shape).Idx → EReal) (iw : (⟨2, ![2048, 4096]⟩ : Shape).Idx → EReal)
    (z : (⟨2, ![512, 4096]⟩ : Shape).Idx → EReal) (rw : (⟨2, ![4096, 4096]⟩ : Shape).Idx → EReal)
    (X3 : Vec Ideal S4096x256 .f32) (X0 : Vec Ideal S512x2048 .f32)
    (X1 : Vec Ideal S2048x256 .f32) (X2 : Vec Ideal S512x4096 .f32) (b : Fin 512) (c : Fin 256) (n : Fin 4096)
    (hn : n.val = c.val + 256 * (i 0).val)
    (h0 : ∀ k : Fin 2048, X0 (ix2 b k) = x (ix2 b k)) (h1 : ∀ k : Fin 2048, X1 (ix2 k c) = iw (ix2 k n))
    (h2 : ∀ k : Fin 4096, X2 (ix2 b k) = z (ix2 b k)) (h3 : ∀ k : Fin 4096, X3 (ix2 k c) = rw (ix2 k n)) :
    k0_pay2 i X3 X0 X1 X2 (ix2 b c) = Spec.cur x iw z rw b n := by
  rw [cur_apply]
  unfold Spec.cur
  refine congrArg₂ (· + ·) (Finset.sum_congr rfl fun k _ => ?_) (Finset.sum_congr rfl fun k _ => ?_)
  · rw [h0, h1]
  · rw [h2, h3, hn]

end Cert.KernelIdeal.KVal

end
-- ==== Proof.KIValue.lean ====
/-
  From the kernel's blocks to whole arrays. The grid has sixteen points; point `t` reads all of the inputs and of the
  previous spikes, column tile `t` (columns `256 t … 256 t + 255`) of the two weight matrices and of the four state
  arrays, and writes column tile `t` of the four result arrays. Element `(p, q)` of a tile is element `(p, q + 256 t)`
  of its array, so what point `t` writes back is tile `t` of the specified result of the launched arrays: the
  pointwise payloads are the specification's scalar formulas of the elements, and the tile's current is the specified
  current of neuron `q + 256 t`. The sixteen tiles cover every column (column `n` lies in tile `n / 256`), so each
  result array ends holding the specified result everywhere, and the arguments are left as launched.
-/
import proofs.«148327_j80693845557793_1_alg».proof.Proof.KernelIdealFrame
import proofs.«148327_j80693845557793_1_alg».proof.Proof.KerStep
import proofs.«148327_j80693845557793_1_alg».proof.Proof.KerCurSpec
import Idealize.ShloMosaic.Lib.Pipeline.Value

noncomputable section

namespace Cert.KernelIdeal.HandValue

open Cert.KernelIdeal Cert.KernelIdeal.Gen Cert.KernelIdeal.Hand Cert.KernelIdeal.KVal
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

theorem hz : (![0, 0] : Fin 2 → Nat) = fun _ => 0 := funext fun a => by fin_cases a <;> rfl

/-- The grid is the sixteen column tiles, and point `t`'s one coordinate is `t`. -/
theorem coord_facts : ∀ t : Fin cfg0.N, ((grid0.coords t) 0).val = t.val :=
  (by decide +kernel : ∀ t : Fin grid0.N, ((grid0.coords t) 0).val = t.val)

/-- The block indices, decided over the grid: the two whole-array windows stay at block (0, 0); every tiled window is
    at block (0, t) at point `t`. -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = t.val)
    ∧ (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = t.val)
    ∧ (win0_8.index t (0 : Fin 2) = 0 ∧ win0_8.index t (1 : Fin 2) = t.val)
    ∧ (win0_9.index t (0 : Fin 2) = 0 ∧ win0_9.index t (1 : Fin 2) = t.val)
    ∧ (win0_10.index t (0 : Fin 2) = 0 ∧ win0_10.index t (1 : Fin 2) = t.val)
    ∧ (win0_11.index t (0 : Fin 2) = 0 ∧ win0_11.index t (1 : Fin 2) = t.val) :=
  (by decide +kernel : ∀ t : Fin grid0.N, _)

/-- Column `q` of tile `t` is column `q + 256 t` of the array. -/
def col (t : Fin cfg0.N) (q : Fin 256) : Fin 4096 :=
  ⟨q.val + 256 * t.val, by have h : t.val < 16 := t.isLt; have := q.isLt; omega⟩

/-! ## A block's element in its array -/

theorem emb0 (t : Fin cfg0.N) (p : Fin 512) (k : Fin 2048) :
    ((cfg0.win 0).blk t).view.emb (ix2 p k) = ix2 p k := by
  have e := (idx_facts t).1
  funext a; apply Fin.ext
  match a with
  | ⟨0, _⟩ => show win0_0.index t (0 : Fin 2) * 512 + 1 * p.val = p.val; omega
  | ⟨1, _⟩ => show win0_0.index t (1 : Fin 2) * 2048 + 1 * k.val = k.val; omega

theorem emb1 (t : Fin cfg0.N) (p : Fin 2048) (q : Fin 256) :
    ((cfg0.win 1).blk t).view.emb (ix2 p q) = ix2 p (col t q) := by
  have e := (idx_facts t).2.1
  funext a; apply Fin.ext
  match a with
  | ⟨0, _⟩ => show win0_1.index t (0 : Fin 2) * 2048 + 1 * p.val = p.val; omega
  | ⟨1, _⟩ => show win0_1.index t (1 : Fin 2) * 256 + 1 * q.val = q.val + 256 * t.val; omega

theorem emb2 (t : Fin cfg0.N) (p : Fin 512) (k : Fin 4096) :
    ((cfg0.win 2).blk t).view.emb (ix2 p k) = ix2 p k := by
  have e := (idx_facts t).2.2.1
  funext a; apply Fin.ext
  match a with
  | ⟨0, _⟩ => show win0_2.index t (0 : Fin 2) * 512 + 1 * p.val = p.val; omega
  | ⟨1, _⟩ => show win0_2.index t (1 : Fin 2) * 4096 + 1 * k.val = k.val; omega

theorem emb3 (t : Fin cfg0.N) (p : Fin 4096) (q : Fin 256) :
    ((cfg0.win 3).blk t).view.emb (ix2 p q) = ix2 p (col t q) := by
  have e := (idx_facts t).2.2.2.1
  funext a; apply Fin.ext
  match a with
  | ⟨0, _⟩ => show win0_3.index t (0 : Fin 2) * 4096 + 1 * p.val = p.val; omega
  | ⟨1, _⟩ => show win0_3.index t (1 : Fin 2) * 256 + 1 * q.val = q.val + 256 * t.val; omega

theorem emb4 (t : Fin cfg0.N) (p : Fin 512) (q : Fin 256) :
    ((cfg0.win 4).blk t).view.emb (ix2 p q) = ix2 p (col t q) := by
  have e := (idx_facts t).2.2.2.2.1
  funext a; apply Fin.ext
  match a with
  | ⟨0, _⟩ => show win0_4.index t (0 : Fin 2) * 512 + 1 * p.val = p.val; omega
  | ⟨1, _⟩ => show win0_4.index t (1 : Fin 2) * 256 + 1 * q.val = q.val + 256 * t.val; omega

theorem emb5 (t : Fin cfg0.N) (p : Fin 512) (q : Fin 256) :
    ((cfg0.win 5).blk t).view.emb (ix2 p q) = ix2 p (col t q) := by
  have e := (idx_facts t).2.2.2.2.2.1
  funext a; apply Fin.ext
  match a with
  | ⟨0, _⟩ => show win0_5.index t (0 : Fin 2) * 512 + 1 * p.val = p.val; omega
  | ⟨1, _⟩ => show win0_5.index t (1 : Fin 2) * 256 + 1 * q.val = q.val + 256 * t.val; omega

theorem emb6 (t : Fin cfg0.N) (p : Fin 512) (q : Fin 256) :
    ((cfg0.win 6).blk t).view.emb (ix2 p q) = ix2 p (col t q) := by
  have e := (idx_facts t).2.2.2.2.2.2.1
  funext a; apply Fin.ext
  match a with
  | ⟨0, _⟩ => show win0_6.index t (0 : Fin 2) * 512 + 1 * p.val = p.val; omega
  | ⟨1, _⟩ => show win0_6.index t (1 : Fin 2) * 256 + 1 * q.val = q.val + 256 * t.val; omega

theorem emb7 (t : Fin cfg0.N) (p : Fin 512) (q : Fin 256) :
    ((cfg0.win 7).blk t).view.emb (ix2 p q) = ix2 p (col t q) := by
  have e := (idx_facts t).2.2.2.2.2.2.2.1
  funext a; apply Fin.ext
  match a with
  | ⟨0, _⟩ => show win0_7.index t (0 : Fin 2) * 512 + 1 * p.val = p.val; omega
  | ⟨1, _⟩ => show win0_7.index t (1 : Fin 2) * 256 + 1 * q.val = q.val + 256 * t.val; omega

theorem emb8 (t : Fin cfg0.N) (p : Fin 512) (q : Fin 256) :
    ((cfg0.win 8).blk t).view.emb (ix2 p q) = ix2 p (col t q) := by
  have e := (idx_facts t).2.2.2.2.2.2.2.2.1
  funext a; apply Fin.ext
  match a with
  | ⟨0, _⟩ => show win0_8.index t (0 : Fin 2) * 512 + 1 * p.val = p.val; omega
  | ⟨1, _⟩ => show win0_8.index t (1 : Fin 2) * 256 + 1 * q.val = q.val + 256 * t.val; omega

theorem emb9 (t : Fin cfg0.N) (p : Fin 512) (q : Fin 256) :
    ((cfg0.win 9).blk t).view.emb (ix2 p q) = ix2 p (col t q) := by
  have e := (idx_facts t).2.2.2.2.2.2.2.2.2.1
  funext a; apply Fin.ext
  match a with
  | ⟨0, _⟩ => show win0_9.index t (0 : Fin 2) * 512 + 1 * p.val = p.val; omega
  | ⟨1, _⟩ => show win0_9.index t (1 : Fin 2) * 256 + 1 * q.val = q.val + 256 * t.val; omega

theorem emb10 (t : Fin cfg0.N) (p : Fin 512) (q : Fin 256) :
    ((cfg0.win 10).blk t).view.emb (ix2 p q) = ix2 p (col t q) := by
  have e := (idx_facts t).2.2.2.2.2.2.2.2.2.2.1
  funext a; apply Fin.ext
  match a with
  | ⟨0, _⟩ => show win0_10.index t (0 : Fin 2) * 512 + 1 * p.val = p.val; omega
  | ⟨1, _⟩ => show win0_10.index t (1 : Fin 2) * 256 + 1 * q.val = q.val + 256 * t.val; omega

theorem emb11 (t : Fin cfg0.N) (p : Fin 512) (q : Fin 256) :
    ((cfg0.win 11).blk t).view.emb (ix2 p q) = ix2 p (col t q) := by
  have e := (idx_facts t).2.2.2.2.2.2.2.2.2.2.2
  funext a; apply Fin.ext
  match a with
  | ⟨0, _⟩ => show win0_11.index t (0 : Fin 2) * 512 + 1 * p.val = p.val; omega
  | ⟨1, _⟩ => show win0_11.index t (1 : Fin 2) * 256 + 1 * q.val = q.val + 256 * t.val; omega

/-! ## A block read at an element -/

theorem iblk0_apply (c : Dev nD) (t : Fin cfg0.N) (p : Fin 512) (k : Fin 2048) :
    iblk m c 0 t (ix2 p k) = m ((c.tc : Thread nD τ).loc main_arg0) (ix2 p k) := by
  show m ((c.tc : Thread nD τ).loc main_arg0) (((cfg0.win 0).blk t).view.emb (ix2 p k)) = _
  rw [emb0]

theorem iblk1_apply (c : Dev nD) (t : Fin cfg0.N) (p : Fin 2048) (q : Fin 256) :
    iblk m c 1 t (ix2 p q) = m ((c.tc : Thread nD τ).loc main_arg5) (ix2 p (col t q)) := by
  show m ((c.tc : Thread nD τ).loc main_arg5) (((cfg0.win 1).blk t).view.emb (ix2 p q)) = _
  rw [emb1]

theorem iblk2_apply (c : Dev nD) (t : Fin cfg0.N) (p : Fin 512) (k : Fin 4096) :
    iblk m c 2 t (ix2 p k) = m ((c.tc : Thread nD τ).loc main_arg4) (ix2 p k) := by
  show m ((c.tc : Thread nD τ).loc main_arg4) (((cfg0.win 2).blk t).view.emb (ix2 p k)) = _
  rw [emb2]

theorem iblk3_apply (c : Dev nD) (t : Fin cfg0.N) (p : Fin 4096) (q : Fin 256) :
    iblk m c 3 t (ix2 p q) = m ((c.tc : Thread nD τ).loc main_arg6) (ix2 p (col t q)) := by
  show m ((c.tc : Thread nD τ).loc main_arg6) (((cfg0.win 3).blk t).view.emb (ix2 p q)) = _
  rw [emb3]

theorem iblk4_apply (c : Dev nD) (t : Fin cfg0.N) (p : Fin 512) (q : Fin 256) :
    iblk m c 4 t (ix2 p q) = m ((c.tc : Thread nD τ).loc main_arg1) (ix2 p (col t q)) := by
  show m ((c.tc : Thread nD τ).loc main_arg1) (((cfg0.win 4).blk t).view.emb (ix2 p q)) = _
  rw [emb4]

theorem iblk5_apply (c : Dev nD) (t : Fin cfg0.N) (p : Fin 512) (q : Fin 256) :
    iblk m c 5 t (ix2 p q) = m ((c.tc : Thread nD τ).loc main_arg3) (ix2 p (col t q)) := by
  show m ((c.tc : Thread nD τ).loc main_arg3) (((cfg0.win 5).blk t).view.emb (ix2 p q)) = _
  rw [emb5]

theorem iblk6_apply (c : Dev nD) (t : Fin cfg0.N) (p : Fin 512) (q : Fin 256) :
    iblk m c 6 t (ix2 p q) = m ((c.tc : Thread nD τ).loc main_arg4) (ix2 p (col t q)) := by
  show m ((c.tc : Thread nD τ).loc main_arg4) (((cfg0.win 6).blk t).view.emb (ix2 p q)) = _
  rw [emb6]

theorem iblk7_apply (c : Dev nD) (t : Fin cfg0.N) (p : Fin 512) (q : Fin 256) :
    iblk m c 7 t (ix2 p q) = m ((c.tc : Thread nD τ).loc main_arg2) (ix2 p (col t q)) := by
  show m ((c.tc : Thread nD τ).loc main_arg2) (((cfg0.win 7).blk t).view.emb (ix2 p q)) = _
  rw [emb7]

theorem read8_apply (G : S512x4096.Idx → EReal) (t : Fin cfg0.N) (p : Fin 512) (q : Fin 256) :
    ((cfg0.win 8).blk t).view.read (Elt Ideal) G (ix2 p q) = G (ix2 p (col t q)) := by
  show G (((cfg0.win 8).blk t).view.emb (ix2 p q)) = _
  rw [emb8]

theorem read9_apply (G : S512x4096.Idx → EReal) (t : Fin cfg0.N) (p : Fin 512) (q : Fin 256) :
    ((cfg0.win 9).blk t).view.read (Elt Ideal) G (ix2 p q) = G (ix2 p (col t q)) := by
  show G (((cfg0.win 9).blk t).view.emb (ix2 p q)) = _
  rw [emb9]

theorem read10_apply (G : S512x4096.Idx → EReal) (t : Fin cfg0.N) (p : Fin 512) (q : Fin 256) :
    ((cfg0.win 10).blk t).view.read (Elt Ideal) G (ix2 p q) = G (ix2 p (col t q)) := by
  show G (((cfg0.win 10).blk t).view.emb (ix2 p q)) = _
  rw [emb10]

theorem read11_apply (G : S512x4096.Idx → BitVec 32) (t : Fin cfg0.N) (p : Fin 512) (q : Fin 256) :
    ((cfg0.win 11).blk t).view.read (Elt Ideal) G (ix2 p q) = G (ix2 p (col t q)) := by
  show G (((cfg0.win 11).blk t).view.emb (ix2 p q)) = _
  rw [emb11]

/-! ## The specified results of the launched arrays -/

/-- The specification's four results of the argument arrays as launched. -/
abbrev GVm (c : Dev nD) : S512x4096.Idx → EReal := Spec.GV (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
abbrev GZm (c : Dev nD) : S512x4096.Idx → EReal := Spec.GZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
abbrev GWm (c : Dev nD) : S512x4096.Idx → EReal := Spec.GW (m ((c.tc : Thread nD τ).loc main_arg1)) (m ((c.tc : Thread nD τ).loc main_arg3)) (m ((c.tc : Thread nD τ).loc main_arg4))
abbrev GRm (c : Dev nD) : S512x4096.Idx → BitVec 32 := Spec.GR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-! ## What each point writes back -/

/-- The tile's current at `(p, q)` of point `t` is the specified current of neuron `q + 256 t` in row `p`: the point
    reads all of the inputs and previous spikes and its own column tile of each weight matrix. -/
theorem cur_point (c : Dev nD) (t : Fin cfg0.N) (p : Fin 512) (q : Fin 256) :
    k0_pay2 (grid0.coords t) (iblk m c 3 t) (iblk m c 0 t) (iblk m c 1 t) (iblk m c 2 t) (ix2 p q)
      = Spec.cur (m ((c.tc : Thread nD τ).loc main_arg0)) (m ((c.tc : Thread nD τ).loc main_arg5))
          (m ((c.tc : Thread nD τ).loc main_arg4)) (m ((c.tc : Thread nD τ).loc main_arg6)) p (col t q) :=
  cur_eq_spec (grid0.coords t) (m ((c.tc : Thread nD τ).loc main_arg0)) (m ((c.tc : Thread nD τ).loc main_arg5))
    (m ((c.tc : Thread nD τ).loc main_arg4)) (m ((c.tc : Thread nD τ).loc main_arg6))
    (iblk m c 3 t) (iblk m c 0 t) (iblk m c 1 t) (iblk m c 2 t) p q (col t q)
    (by show q.val + 256 * t.val = q.val + 256 * ((grid0.coords t) 0).val; rw [coord_facts t])
    (fun k => iblk0_apply m c t p k) (fun k => iblk1_apply m c t k q)
    (fun k => iblk2_apply m c t p k) (fun k => iblk3_apply m c t k q)

/-- Point `t` writes back block `t` of the specified adaptation currents. -/
theorem flushedW (c : Dev nD) (t : Fin cfg0.N) :
    (dats (F := Ideal) m 0 c).flushed 10 t = ((cfg0.win 10).blk t).view.read (Elt Ideal) (GWm m c) := by
  show (cfg0.win 10).cut (grid0.coords t) ((dats m 0 c).after 10 t) = _
  rw [after0_10]
  unfold out0_10
  rw [View.canon_unit_zero hz]
  simp only [View.ld_unit_zero (S := S512x256) hz]
  funext j
  obtain ⟨p, q, rfl⟩ : ∃ (p : Fin 512) (q : Fin 256), j = ix2 p q := ⟨j 0, j 1, eq_ix2 j⟩
  rw [read10_apply]
  refine (stepW_apply _ _ _ p q).trans ?_
  rw [iblk4_apply, iblk5_apply, iblk6_apply]
  rfl

/-- Point `t` writes back block `t` of the specified potentials. -/
theorem flushedV (c : Dev nD) (t : Fin cfg0.N) :
    (dats (F := Ideal) m 0 c).flushed 8 t = ((cfg0.win 8).blk t).view.read (Elt Ideal) (GVm m c) := by
  show (cfg0.win 8).cut (grid0.coords t) ((dats m 0 c).after 8 t) = _
  rw [after0_8]
  unfold out0_8
  rw [View.canon_unit_zero hz]
  simp only [View.ld_unit_zero (S := S512x256) hz, View.ld_unit_zero (S := S512x2048) hz,
    View.ld_unit_zero (S := S2048x256) hz, View.ld_unit_zero (S := S512x4096) hz, View.ld_unit_zero (S := S4096x256) hz]
  funext j
  obtain ⟨p, q, rfl⟩ : ∃ (p : Fin 512) (q : Fin 256), j = ix2 p q := ⟨j 0, j 1, eq_ix2 j⟩
  rw [read8_apply]
  refine (stepV_apply _ _ _ _ p q).trans ?_
  rw [cur_point, iblk4_apply, iblk5_apply, iblk6_apply]
  rfl

/-- Point `t` writes back block `t` of the specified spike indicators. -/
theorem flushedZ (c : Dev nD) (t : Fin cfg0.N) :
    (dats (F := Ideal) m 0 c).flushed 9 t = ((cfg0.win 9).blk t).view.read (Elt Ideal) (GZm m c) := by
  show (cfg0.win 9).cut (grid0.coords t) ((dats m 0 c).after 9 t) = _
  rw [after0_9]
  unfold out0_9
  rw [View.canon_unit_zero hz]
  simp only [View.ld_unit_zero (S := S512x256) hz, View.ld_unit_zero (S := S512x2048) hz,
    View.ld_unit_zero (S := S2048x256) hz, View.ld_unit_zero (S := S512x4096) hz, View.ld_unit_zero (S := S4096x256) hz]
  funext j
  obtain ⟨p, q, rfl⟩ : ∃ (p : Fin 512) (q : Fin 256), j = ix2 p q := ⟨j 0, j 1, eq_ix2 j⟩
  rw [read9_apply]
  refine (stepZ_apply _ _ _ _ _ p q).trans ?_
  rw [cur_point, iblk4_apply, iblk5_apply, iblk6_apply, iblk7_apply]
  rfl

/-- Point `t` writes back block `t` of the specified refractory counters. -/
theorem flushedR (c : Dev nD) (t : Fin cfg0.N) :
    (dats (F := Ideal) m 0 c).flushed 11 t = ((cfg0.win 11).blk t).view.read (Elt Ideal) (GRm m c) := by
  show (cfg0.win 11).cut (grid0.coords t) ((dats m 0 c).after 11 t) = _
  rw [after0_11]
  unfold out0_11
  rw [View.canon_unit_zero hz]
  simp only [View.ld_unit_zero (S := S512x256) hz, View.ld_unit_zero (S := S512x2048) hz,
    View.ld_unit_zero (S := S2048x256) hz, View.ld_unit_zero (S := S512x4096) hz, View.ld_unit_zero (S := S4096x256) hz]
  funext j
  obtain ⟨p, q, rfl⟩ : ∃ (p : Fin 512) (q : Fin 256), j = ix2 p q := ⟨j 0, j 1, eq_ix2 j⟩
  rw [read11_apply]
  refine (stepR_apply _ _ _ _ _ p q).trans ?_
  rw [cur_point, iblk4_apply, iblk5_apply, iblk6_apply, iblk7_apply]
  rfl

/-! ## The blocks tile each output array -/

/-- An index of the array is in point `t`'s block of window 8 iff each coordinate is in the block's range. -/
theorem mem_blk8 (t : Fin cfg0.N) (i : S512x4096.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v0_0).slice (win0_8.rect t)).set ↔ _
  rw [View.set_slice_whole, Rect.mem_set_unit]
  exact Iff.rfl

/-- Every index of the array lies in the block of the point that owns its column: column `n` belongs to tile `n / 256`. -/
theorem cover8 (i : S512x4096.Idx) :
    ∃ t : Fin cfg0.N, (cfg0.win 8).flush t = true ∧ i ∈ ((cfg0.win 8).blk t).view.set := by
  have hi0 : (i 0).val < 512 := (i 0).isLt
  have hi1 : (i 1).val < 4096 := (i 1).isLt
  have ht : (i 1).val / 256 < 16 := by omega
  obtain ⟨e0, e1⟩ := (idx_facts ⟨(i 1).val / 256, ht⟩).2.2.2.2.2.2.2.2.1
  refine ⟨⟨(i 1).val / 256, ht⟩, flush0_8 _, ?_⟩
  rw [mem_blk8]
  intro a
  match a with
  | ⟨0, _⟩ =>
    show win0_8.index ⟨(i 1).val / 256, ht⟩ (0 : Fin 2) * 512 ≤ (i 0).val
      ∧ (i 0).val < win0_8.index ⟨(i 1).val / 256, ht⟩ (0 : Fin 2) * 512 + 512
    omega
  | ⟨1, _⟩ =>
    show win0_8.index ⟨(i 1).val / 256, ht⟩ (1 : Fin 2) * 256 ≤ (i 1).val
      ∧ (i 1).val < win0_8.index ⟨(i 1).val / 256, ht⟩ (1 : Fin 2) * 256 + 256
    have e1' : win0_8.index ⟨(i 1).val / 256, ht⟩ (1 : Fin 2) = (i 1).val / 256 := e1
    omega

/-- An index of the array is in point `t`'s block of window 9 iff each coordinate is in the block's range. -/
theorem mem_blk9 (t : Fin cfg0.N) (i : S512x4096.Idx) :
    i ∈ ((cfg0.win 9).blk t).view.set ↔ ∀ a : Fin 2, win0_9.index t a * S512x256.size a ≤ (i a).val ∧ (i a).val < win0_9.index t a * S512x256.size a + S512x256.size a := by
  show i ∈ ((View.whole main_v0_1).slice (win0_9.rect t)).set ↔ _
  rw [View.set_slice_whole, Rect.mem_set_unit]
  exact Iff.rfl

/-- Every index of the array lies in the block of the point that owns its column: column `n` belongs to tile `n / 256`. -/
theorem cover9 (i : S512x4096.Idx) :
    ∃ t : Fin cfg0.N, (cfg0.win 9).flush t = true ∧ i ∈ ((cfg0.win 9).blk t).view.set := by
  have hi0 : (i 0).val < 512 := (i 0).isLt
  have hi1 : (i 1).val < 4096 := (i 1).isLt
  have ht : (i 1).val / 256 < 16 := by omega
  obtain ⟨e0, e1⟩ := (idx_facts ⟨(i 1).val / 256, ht⟩).2.2.2.2.2.2.2.2.2.1
  refine ⟨⟨(i 1).val / 256, ht⟩, flush0_9 _, ?_⟩
  rw [mem_blk9]
  intro a
  match a with
  | ⟨0, _⟩ =>
    show win0_9.index ⟨(i 1).val / 256, ht⟩ (0 : Fin 2) * 512 ≤ (i 0).val
      ∧ (i 0).val < win0_9.index ⟨(i 1).val / 256, ht⟩ (0 : Fin 2) * 512 + 512
    omega
  | ⟨1, _⟩ =>
    show win0_9.index ⟨(i 1).val / 256, ht⟩ (1 : Fin 2) * 256 ≤ (i 1).val
      ∧ (i 1).val < win0_9.index ⟨(i 1).val / 256, ht⟩ (1 : Fin 2) * 256 + 256
    have e1' : win0_9.index ⟨(i 1).val / 256, ht⟩ (1 : Fin 2) = (i 1).val / 256 := e1
    omega

/-- An index of the array is in point `t`'s block of window 10 iff each coordinate is in the block's range. -/
theorem mem_blk10 (t : Fin cfg0.N) (i : S512x4096.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v0_2).slice (win0_10.rect t)).set ↔ _
  rw [View.set_slice_whole, Rect.mem_set_unit]
  exact Iff.rfl

/-- Every index of the array lies in the block of the point that owns its column: column `n` belongs to tile `n / 256`. -/
theorem cover10 (i : S512x4096.Idx) :
    ∃ t : Fin cfg0.N, (cfg0.win 10).flush t = true ∧ i ∈ ((cfg0.win 10).blk t).view.set := by
  have hi0 : (i 0).val < 512 := (i 0).isLt
  have hi1 : (i 1).val < 4096 := (i 1).isLt
  have ht : (i 1).val / 256 < 16 := by omega
  obtain ⟨e0, e1⟩ := (idx_facts ⟨(i 1).val / 256, ht⟩).2.2.2.2.2.2.2.2.2.2.1
  refine ⟨⟨(i 1).val / 256, ht⟩, flush0_10 _, ?_⟩
  rw [mem_blk10]
  intro a
  match a with
  | ⟨0, _⟩ =>
    show win0_10.index ⟨(i 1).val / 256, ht⟩ (0 : Fin 2) * 512 ≤ (i 0).val
      ∧ (i 0).val < win0_10.index ⟨(i 1).val / 256, ht⟩ (0 : Fin 2) * 512 + 512
    omega
  | ⟨1, _⟩ =>
    show win0_10.index ⟨(i 1).val / 256, ht⟩ (1 : Fin 2) * 256 ≤ (i 1).val
      ∧ (i 1).val < win0_10.index ⟨(i 1).val / 256, ht⟩ (1 : Fin 2) * 256 + 256
    have e1' : win0_10.index ⟨(i 1).val / 256, ht⟩ (1 : Fin 2) = (i 1).val / 256 := e1
    omega

/-- An index of the array is in point `t`'s block of window 11 iff each coordinate is in the block's range. -/
theorem mem_blk11 (t : Fin cfg0.N) (i : S512x4096.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v0_3).slice (win0_11.rect t)).set ↔ _
  rw [View.set_slice_whole, Rect.mem_set_unit]
  exact Iff.rfl

/-- Every index of the array lies in the block of the point that owns its column: column `n` belongs to tile `n / 256`. -/
theorem cover11 (i : S512x4096.Idx) :
    ∃ t : Fin cfg0.N, (cfg0.win 11).flush t = true ∧ i ∈ ((cfg0.win 11).blk t).view.set := by
  have hi0 : (i 0).val < 512 := (i 0).isLt
  have hi1 : (i 1).val < 4096 := (i 1).isLt
  have ht : (i 1).val / 256 < 16 := by omega
  obtain ⟨e0, e1⟩ := (idx_facts ⟨(i 1).val / 256, ht⟩).2.2.2.2.2.2.2.2.2.2.2
  refine ⟨⟨(i 1).val / 256, ht⟩, flush0_11 _, ?_⟩
  rw [mem_blk11]
  intro a
  match a with
  | ⟨0, _⟩ =>
    show win0_11.index ⟨(i 1).val / 256, ht⟩ (0 : Fin 2) * 512 ≤ (i 0).val
      ∧ (i 0).val < win0_11.index ⟨(i 1).val / 256, ht⟩ (0 : Fin 2) * 512 + 512
    omega
  | ⟨1, _⟩ =>
    show win0_11.index ⟨(i 1).val / 256, ht⟩ (1 : Fin 2) * 256 ≤ (i 1).val
      ∧ (i 1).val < win0_11.index ⟨(i 1).val / 256, ht⟩ (1 : Fin 2) * 256 + 256
    have e1' : win0_11.index ⟨(i 1).val / 256, ht⟩ (1 : Fin 2) = (i 1).val / 256 := e1
    omega

/-! ## The output arrays after the run -/

/-- The potentials' array ends holding the specified new potentials. -/
theorem finalV (c : Dev nD) : (dats (F := Ideal) m 0 c).arrAt 8 cfg0.N = GVm m c :=
  (dats m 0 c).arrAt_eq_of_cover 8 (GVm m c) (fun t _ => flushedV m c t) cover8
/-- The spike indicators' array ends holding the specified new spike indicators. -/
theorem finalZ (c : Dev nD) : (dats (F := Ideal) m 0 c).arrAt 9 cfg0.N = GZm m c :=
  (dats m 0 c).arrAt_eq_of_cover 9 (GZm m c) (fun t _ => flushedZ m c t) cover9
/-- The adaptation currents' array ends holding the specified new adaptation currents. -/
theorem finalW (c : Dev nD) : (dats (F := Ideal) m 0 c).arrAt 10 cfg0.N = GWm m c :=
  (dats m 0 c).arrAt_eq_of_cover 10 (GWm m c) (fun t _ => flushedW m c t) cover10
/-- The refractory counters' array ends holding the specified new counters. -/
theorem finalR (c : Dev nD) : (dats (F := Ideal) m 0 c).arrAt 11 cfg0.N = GRm m c :=
  (dats m 0 c).arrAt_eq_of_cover 11 (GRm m c) (fun t _ => flushedR m c t) cover11

/-! ## The whole run -/

/-- Every weakly fair execution of the program terminates with the four result arrays holding the specified step of
    the seven argument arrays, and the arguments as launched. -/
theorem run : θ_run defs (onTc (τ := τ) (main (F := Ideal))) ⟨m, fun _ => 0, ρ⟩ (fun r => ∀ c : Dev nD,
      r.2.mem ((c.tc : Thread nD τ).loc main_v0_0) = Spec.GV (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_1) = Spec.GZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_2) = Spec.GW (m ((c.tc : Thread nD τ).loc main_arg1)) (m ((c.tc : Thread nD τ).loc main_arg3)) (m ((c.tc : Thread nD τ).loc main_arg4))
      ∧ r.2.mem ((c.tc : Thread nD τ).loc main_v0_3) = Spec.GR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).1 8).trans (finalV m c), ((h c).1 9).trans (finalZ m c),
      ((h c).1 10).trans (finalW m c), ((h c).1 11).trans (finalR m c),
      ((h c).1 0).trans (((dats m 0 c).arrAt_in 0 rfl _).trans ((A_eq m c 0).trans rfl)),
      ((h c).1 4).trans (((dats m 0 c).arrAt_in 4 rfl _).trans ((A_eq m c 4).trans rfl)),
      ((h c).1 7).trans (((dats m 0 c).arrAt_in 7 rfl _).trans ((A_eq m c 7).trans rfl)),
      ((h c).1 5).trans (((dats m 0 c).arrAt_in 5 rfl _).trans ((A_eq m c 5).trans rfl)),
      ((h c).1 2).trans (((dats m 0 c).arrAt_in 2 rfl _).trans ((A_eq m c 2).trans rfl)),
      ((h c).1 1).trans (((dats m 0 c).arrAt_in 1 rfl _).trans ((A_eq m c 1).trans rfl)),
      ((h c).1 3).trans (((dats m 0 c).arrAt_in 3 rfl _).trans ((A_eq m c 3).trans rfl))⟩) (run_main m ρ)

end Cert.KernelIdeal.HandValue

end
-- ==== Proof.RefRun.lean ====
/-
  The reference computation of the neuron step, read as a sequence of whole-array operations on the host, and what its
  run leaves in memory: each of the four results holds the composition of those operations applied to the seven argument
  arrays, and the arguments are unchanged. The four compositions are named below (with their shared parts: the recurrent
  weights with the diagonal removed, the input current, the new potential, the new spike indicator), generic in the
  float values, so that a value proof can read them at an index.
-/
import proofs.«148327_j80693845557793_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The four results as compositions of whole-array operations -/

/-- The recurrent weights with every diagonal entry (row index equal to column index) replaced by zero. -/
def offDiag (a6 : (⟨S4096x4096, .f32⟩ : BufTy).Contents (Elt F)) : (⟨S4096x4096, .f32⟩ : BufTy).Contents (Elt F) :=
  select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (id (constant S_ .f32 0x00000000#32))) a6

/-- The masked weights kept only where their product with the sign of the unmasked weight is at least zero, zero
    elsewhere (the product is a magnitude or zero, so this keeps everything). -/
def signKept (a6 : (⟨S4096x4096, .f32⟩ : BufTy).Contents (Elt F)) : (⟨S4096x4096, .f32⟩ : BufTy).Contents (Elt F) :=
  select (cmpf .oge (mulf (Host.sign a6) (offDiag a6)) (broadcastInDim S4096x4096 ![] bcast_S_S4096x4096 (constant S_ .f32 0x00000000#32)))
    (offDiag a6) (broadcastInDim S4096x4096 ![] bcast_S_S4096x4096 (id (constant S_ .f32 0x00000000#32)))

/-- The input current: inputs times input weights plus previous spikes times the masked recurrent weights. -/
def resCur (a0 : (⟨S512x2048, .f32⟩ : BufTy).Contents (Elt F)) (a4 : (⟨S512x4096, .f32⟩ : BufTy).Contents (Elt F))
    (a5 : (⟨S2048x4096, .f32⟩ : BufTy).Contents (Elt F)) (a6 : (⟨S4096x4096, .f32⟩ : BufTy).Contents (Elt F)) : (⟨S512x4096, .f32⟩ : BufTy).Contents (Elt F) :=
  addf (Host.dotGeneral dot_S512x2048_S2048x4096_S512x4096_1_0_0_1_n_n none a0 a5)
    (Host.dotGeneral dot_S512x4096_S4096x4096_S512x4096_1_0_0_1_n_n none a4 (signKept a6))

/-- The new potentials. -/
def resV (a0 : (⟨S512x2048, .f32⟩ : BufTy).Contents (Elt F)) (a1 : (⟨S512x4096, .f32⟩ : BufTy).Contents (Elt F))
    (a2 : (⟨S512x4096, .i32⟩ : BufTy).Contents (Elt F)) (a3 a4 : (⟨S512x4096, .f32⟩ : BufTy).Contents (Elt F))
    (a5 : (⟨S2048x4096, .f32⟩ : BufTy).Contents (Elt F)) (a6 : (⟨S4096x4096, .f32⟩ : BufTy).Contents (Elt F)) : (⟨S512x4096, .f32⟩ : BufTy).Contents (Elt F) :=
  select (cmpf .ogt a4 (broadcastInDim S512x4096 ![] bcast_S_S512x4096 (constant S_ .f32 0x3F000000#32))) (broadcastInDim S512x4096 ![] bcast_S_S512x4096 (constant S_ .f32 0xC28D3333#32))
    (addf
      (addf (subf a1 (mulf (broadcastInDim S512x4096 ![] bcast_S_S512x4096 (constant S_ .f32 0x3DDAA5CF#32)) (subf a1 (broadcastInDim S512x4096 ![] bcast_S_S512x4096 (constant S_ .f32 0xC28D3333#32)))))
        (mulf (broadcastInDim S512x4096 ![] bcast_S_S512x4096 (constant S_ .f32 0x3E5AA5CF#32))
          (minimumf (broadcastInDim S512x4096 ![] bcast_S_S512x4096 (id (constant S_ .f32 0x438C8000#32)))
            (maximumf (broadcastInDim S512x4096 ![] bcast_S_S512x4096 (id (constant S_ .f32 0xC9742400#32)))
              (Host.exp (Host.divf (subf a1 (broadcastInDim S512x4096 ![] bcast_S_S512x4096 (constant S_ .f32 0xC249999A#32))) (broadcastInDim S512x4096 ![] bcast_S_S512x4096 (constant S_ .f32 0x40000000#32))))))))
      (Host.divf (mulf (subf (resCur a0 a4 a5 a6) a3) (broadcastInDim S512x4096 ![] bcast_S_S512x4096 (constant S_ .f32 0x3F800000#32))) (broadcastInDim S512x4096 ![] bcast_S_S512x4096 (constant S_ .f32 0x438C8000#32))))

/-- The new spike indicators. -/
def resZ (a0 : (⟨S512x2048, .f32⟩ : BufTy).Contents (Elt F)) (a1 : (⟨S512x4096, .f32⟩ : BufTy).Contents (Elt F))
    (a2 : (⟨S512x4096, .i32⟩ : BufTy).Contents (Elt F)) (a3 a4 : (⟨S512x4096, .f32⟩ : BufTy).Contents (Elt F))
    (a5 : (⟨S2048x4096, .f32⟩ : BufTy).Contents (Elt F)) (a6 : (⟨S4096x4096, .f32⟩ : BufTy).Contents (Elt F)) : (⟨S512x4096, .f32⟩ : BufTy).Contents (Elt F) :=
  select (cmpi .sgt a2 (broadcastInDim S512x4096 ![] bcast_S_S512x4096 (constantI S_ 32 0#32))) (broadcastInDim S512x4096 ![] bcast_S_S512x4096 (id (constant S_ .f32 0x00000000#32)))
    (uitofp .f32
      (cmpf .ogt
        (Host.divf (Host.negf (subf (broadcastInDim S512x4096 ![] bcast_S_S512x4096 (constant S_ .f32 0xC249999A#32)) (resV a0 a1 a2 a3 a4 a5 a6))) (broadcastInDim S512x4096 ![] bcast_S_S512x4096 (constant S_ .f32 0x41A1999A#32)))
        (broadcastInDim S512x4096 ![] bcast_S_S512x4096 (constant S_ .f32 0x00000000#32))))

/-- The new adaptation currents. -/
def resW (a0 : (⟨S512x2048, .f32⟩ : BufTy).Contents (Elt F)) (a1 : (⟨S512x4096, .f32⟩ : BufTy).Contents (Elt F))
    (a2 : (⟨S512x4096, .i32⟩ : BufTy).Contents (Elt F)) (a3 a4 : (⟨S512x4096, .f32⟩ : BufTy).Contents (Elt F))
    (a5 : (⟨S2048x4096, .f32⟩ : BufTy).Contents (Elt F)) (a6 : (⟨S4096x4096, .f32⟩ : BufTy).Contents (Elt F)) : (⟨S512x4096, .f32⟩ : BufTy).Contents (Elt F) :=
  addf
    (addf (subf a3 (mulf (broadcastInDim S512x4096 ![] bcast_S_S512x4096 (constant S_ .f32 0x3BE38E39#32)) a3))
      (mulf (broadcastInDim S512x4096 ![] bcast_S_S512x4096 (constant S_ .f32 0x3CE38E39#32)) (subf a1 (broadcastInDim S512x4096 ![] bcast_S_S512x4096 (constant S_ .f32 0xC28D3333#32)))))
    (mulf (broadcastInDim S512x4096 ![] bcast_S_S512x4096 (constant S_ .f32 0x3DA4DD2F#32)) a4)

/-- The new refractory counters. -/
def resR (a0 : (⟨S512x2048, .f32⟩ : BufTy).Contents (Elt F)) (a1 : (⟨S512x4096, .f32⟩ : BufTy).Contents (Elt F))
    (a2 : (⟨S512x4096, .i32⟩ : BufTy).Contents (Elt F)) (a3 a4 : (⟨S512x4096, .f32⟩ : BufTy).Contents (Elt F))
    (a5 : (⟨S2048x4096, .f32⟩ : BufTy).Contents (Elt F)) (a6 : (⟨S4096x4096, .f32⟩ : BufTy).Contents (Elt F)) : (⟨S512x4096, .i32⟩ : BufTy).Contents (Elt F) :=
  minsi (broadcastInDim S512x4096 ![] bcast_S_S512x4096 (id (constantI S_ 32 2#32)))
    (maxsi (broadcastInDim S512x4096 ![] bcast_S_S512x4096 (id (constantI S_ 32 0#32)))
      (addi (subi a2 (broadcastInDim S512x4096 ![] bcast_S_S512x4096 (constantI S_ 32 1#32)))
        (fptosi 32 (mulf (resZ (F := F) a0 a1 a2 a3 a4 a5 a6) (broadcastInDim S512x4096 ![] bcast_S_S512x4096 (constant S_ .f32 0x40000000#32))))))

/-! ## The program as a list of operations, and its run -/

/-- The program's 112 operations in order; an outlined function's operations stand at its call. -/
abbrev ops : List (HloOp τ sig (Elt F)) :=
  [ nullary main_v0 (iotaInDim S4096x4096 32 0),
    nullary main_v1 (iotaInDim S4096x4096 32 1),
    nullary main_c (constantI S_ 32 0#32),
    unary main_c main_v2 (broadcastInDim S4096x4096 ![] bcast_S_S4096x4096 : (⟨S_, .i32⟩ : BufTy).Contents (Elt F) → (⟨S4096x4096, .i32⟩ : BufTy).Contents (Elt F)),
    binary main_v0 main_v2 main_v3 (addi : (⟨S4096x4096, .i32⟩ : BufTy).Contents (Elt F) → (⟨S4096x4096, .i32⟩ : BufTy).Contents (Elt F) → (⟨S4096x4096, .i32⟩ : BufTy).Contents (Elt F)),
    binary main_v3 main_v1 main_v4 (cmpi .eq : (⟨S4096x4096, .i32⟩ : BufTy).Contents (Elt F) → (⟨S4096x4096, .i32⟩ : BufTy).Contents (Elt F) → (⟨S4096x4096, .i1⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.ternary (TRef.of (T := ⟨S4096x4096, .i1⟩) main_v4) (TRef.of (T := ⟨S4096x4096, .f32⟩) main_call0_v1) (TRef.of (T := ⟨S4096x4096, .f32⟩) main_arg6) (TRef.of (T := ⟨S4096x4096, .f32⟩) main_v5) select,
    unary main_arg6 main_v6 (Host.sign : (⟨S4096x4096, .f32⟩ : BufTy).Contents (Elt F) → (⟨S4096x4096, .f32⟩ : BufTy).Contents (Elt F)),
    binary main_v6 main_v5 main_v7 (mulf : (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0x00000000#32),
    unary main_cst_0 main_v8 (broadcastInDim S4096x4096 ![] bcast_S_S4096x4096 : (⟨S_, .f32⟩ : BufTy).Contents (Elt F) → (⟨S4096x4096, .f32⟩ : BufTy).Contents (Elt F)),
    binary main_v7 main_v8 main_v9 (cmpf .oge : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S4096x4096, .f32⟩) main_call1_v1) (broadcastInDim S4096x4096 ![] bcast_S_S4096x4096),
    TRef.ternary (TRef.of (T := ⟨S4096x4096, .i1⟩) main_v9) (TRef.of (T := ⟨S4096x4096, .f32⟩) main_v5) (TRef.of (T := ⟨S4096x4096, .f32⟩) main_call1_v1) (TRef.of (T := ⟨S4096x4096, .f32⟩) main_v10) select,
    binary main_arg0 main_arg5 main_v11 ((fun l r => Host.dotGeneral dot_S512x2048_S2048x4096_S512x4096_1_0_0_1_n_n none l r) : (⟨S512x2048, .f32⟩ : BufTy).Contents (Elt F) → (⟨S2048x4096, .f32⟩ : BufTy).Contents (Elt F) → (⟨S512x4096, .f32⟩ : BufTy).Contents (Elt F)),
    binary main_arg4 main_v10 main_v12 ((fun l r => Host.dotGeneral dot_S512x4096_S4096x4096_S512x4096_1_0_0_1_n_n none l r) : (⟨S512x4096, .f32⟩ : BufTy).Contents (Elt F) → (⟨S4096x4096, .f32⟩ : BufTy).Contents (Elt F) → (⟨S512x4096, .f32⟩ : BufTy).Contents (Elt F)),
    binary main_v11 main_v12 main_v13 (addf : (⟨S512x4096, .f32⟩ : BufTy).Contents (Elt F) → (⟨S512x4096, .f32⟩ : BufTy).Contents (Elt F) → (⟨S512x4096, .f32⟩ : BufTy).Contents (Elt F)),
    nullary main_cst_2 (constant S_ .f32 0xC249999A#32),
    unary main_cst_2 main_v14 (broadcastInDim S512x4096 ![] bcast_S_S512x4096 : (⟨S_, .f32⟩ : BufTy).Contents (Elt F) → (⟨S512x4096, .f32⟩ : BufTy).Contents (Elt F)),
    binary main_arg1 main_v14 main_v15 (subf : (⟨S512x4096, .f32⟩ : BufTy).Contents (Elt F) → (⟨S512x4096, .f32⟩ : BufTy).Contents (Elt F) → (⟨S512x4096, .f32⟩ : BufTy).Contents (Elt F)),
    nullary main_cst_3 (constant S_ .f32 0x40000000#32),
    unary main_cst_3 main_v16 (broadcastInDim S512x4096 ![] bcast_S_S512x4096 : (⟨S_, .f32⟩ : BufTy).Contents (Elt F) → (⟨S512x4096, .f32⟩ : BufTy).Contents (Elt F)),
    binary main_v15 main_v16 main_v17 (Host.divf : (⟨S512x4096, .f32⟩ : BufTy).Contents (Elt F) → (⟨S512x4096, .f32⟩ : BufTy).Contents (Elt F) → (⟨S512x4096, .f32⟩ : BufTy).Contents (Elt F)),
    unary main_v17 main_v18 (Host.exp : (⟨S512x4096, .f32⟩ : BufTy).Contents (Elt F) → (⟨S512x4096, .f32⟩ : BufTy).Contents (Elt F)),
    nullary main_cst_4 (constant S_ .f32 0xC9742400#32),
    nullary main_cst_5 (constant S_ .f32 0x438C8000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S512x4096, .f32⟩) main_call2_v1) (broadcastInDim S512x4096 ![] bcast_S_S512x4096),
    TRef.binary (TRef.of (T := ⟨S512x4096, .f32⟩) main_call2_v1) (TRef.of (T := ⟨S512x4096, .f32⟩) main_v18) (TRef.of (T := ⟨S512x4096, .f32⟩) main_call2_v2) maximumf,
    TRef.unary (TRef.of (T := ⟨S_, .f32⟩) main_cst_5) (TRef.of (T := ⟨S_, .f32⟩) main_call2_v3) id,
    TRef.unary (TRef.of (T := ⟨S_, .f32⟩) main_call2_v3) (TRef.of (T := ⟨S512x4096, .f32⟩) main_call2_v4) (broadcastInDim S512x4096 ![] bcast_S_S512x4096),
    TRef.binary (TRef.of (T := ⟨S512x4096, .f32⟩) main_call2_v4) (TRef.of (T := ⟨S512x4096, .f32⟩) main_call2_v2) (TRef.of (T := ⟨S512x4096, .f32⟩) main_v19) minimumf,
    nullary main_cst_6 (constant S_ .f32 0xC28D3333#32),
    unary main_cst_6 main_v20 (broadcastInDim S512x4096 ![] bcast_S_S512x4096 : (⟨S_, .f32⟩ : BufTy).Contents (Elt F) → (⟨S512x4096, .f32⟩ : BufTy).Contents (Elt F)),
    binary main_arg1 main_v20 main_v21 (subf : (⟨S512x4096, .f32⟩ : BufTy).Contents (Elt F) → (⟨S512x4096, .f32⟩ : BufTy).Contents (Elt F) → (⟨S512x4096, .f32⟩ : BufTy).Contents (Elt F)),
    nullary main_cst_7 (constant S_ .f32 0x3DDAA5CF#32),
    unary main_cst_7 main_v22 (broadcastInDim S512x4096 ![] bcast_S_S512x4096 : (⟨S_, .f32⟩ : BufTy).Contents (Elt F) → (⟨S512x4096, .f32⟩ : BufTy).Contents (Elt F)),
    binary main_v22 main_v21 main_v23 (mulf : (⟨S512x4096, .f32⟩ : BufTy).Contents (Elt F) → (⟨S512x4096, .f32⟩ : BufTy).Contents (Elt F) → (⟨S512x4096, .f32⟩ : BufTy).Contents (Elt F)),
    binary main_arg1 main_v23 main_v24 (subf : (⟨S512x4096, .f32⟩ : BufTy).Contents (Elt F) → (⟨S512x4096, .f32⟩ : BufTy).Contents (Elt F) → (⟨S512x4096, .f32⟩ : BufTy).Contents (Elt F)),
    nullary main_cst_8 (constant S_ .f32 0x3E5AA5CF#32),
    unary main_cst_8 main_v25 (broadcastInDim S512x4096 ![] bcast_S_S512x4096 : (⟨S_, .f32⟩ : BufTy).Contents (Elt F) → (⟨S512x4096, .f32⟩ : BufTy).Contents (Elt F)),
    binary main_v25 main_v19 main_v26 (mulf : (⟨S512x4096, .f32⟩ : BufTy).Contents (Elt F) → (⟨S512x4096, .f32⟩ : BufTy).Contents (Elt F) → (⟨S512x4096, .f32⟩ : BufTy).Contents (Elt F)),
    binary main_v24 main_v26 main_v27 (addf : (⟨S512x4096, .f32⟩ : BufTy).Contents (Elt F) → (⟨S512x4096, .f32⟩ : BufTy).Contents (Elt F) → (⟨S512x4096, .f32⟩ : BufTy).Contents (Elt F)),
    binary main_v13 main_arg3 main_v28 (subf : (⟨S512x4096, .f32⟩ : BufTy).Contents (Elt F) → (⟨S512x4096, .f32⟩ : BufTy).Contents (Elt F) → (⟨S512x4096, .f32⟩ : BufTy).Contents (Elt F)),
    nullary main_cst_9 (constant S_ .f32 0x3F800000#32),
    unary main_cst_9 main_v29 (broadcastInDim S512x4096 ![] bcast_S_S512x4096 : (⟨S_, .f32⟩ : BufTy).Contents (Elt F) → (⟨S512x4096, .f32⟩ : BufTy).Contents (Elt F)),
    binary main_v28 main_v29 main_v30 (mulf : (⟨S512x4096, .f32⟩ : BufTy).Contents (Elt F) → (⟨S512x4096, .f32⟩ : BufTy).Contents (Elt F) → (⟨S512x4096, .f32⟩ : BufTy).Contents (Elt F)),
    nullary main_cst_10 (constant S_ .f32 0x438C8000#32),
    unary main_cst_10 main_v31 (broadcastInDim S512x4096 ![] bcast_S_S512x4096 : (⟨S_, .f32⟩ : BufTy).Contents (Elt F) → (⟨S512x4096, .f32⟩ : BufTy).Contents (Elt F)),
    binary main_v30 main_v31 main_v32 (Host.divf : (⟨S512x4096, .f32⟩ : BufTy).Contents (Elt F) → (⟨S512x4096, .f32⟩ : BufTy).Contents (Elt F) → (⟨S512x4096, .f32⟩ : BufTy).Contents (Elt F)),
    binary main_v27 main_v32 main_v33 (addf : (⟨S512x4096, .f32⟩ : BufTy).Contents (Elt F) → (⟨S512x4096, .f32⟩ : BufTy).Contents (Elt F) → (⟨S512x4096, .f32⟩ : BufTy).Contents (Elt F)),
    nullary main_cst_11 (constant S_ .f32 0x3F000000#32),
    unary main_cst_11 main_v34 (broadcastInDim S512x4096 ![] bcast_S_S512x4096 : (⟨S_, .f32⟩ : BufTy).Contents (Elt F) → (⟨S512x4096, .f32⟩ : BufTy).Contents (Elt F)),
    binary main_arg4 main_v34 main_v35 (cmpf .ogt : (⟨S512x4096, .f32⟩ : BufTy).Contents (Elt F) → (⟨S512x4096, .f32⟩ : BufTy).Contents (Elt F) → (⟨S512x4096, .i1⟩ : BufTy).Contents (Elt F)),
    nullary main_cst_12 (constant S_ .f32 0xC28D3333#32),
    TRef.unary (TRef.of (T := ⟨S_, .f32⟩) main_cst_12) (TRef.of (T := ⟨S512x4096, .f32⟩) main_call3_v0) (broadcastInDim S512x4096 ![] bcast_S_S512x4096),
    TRef.ternary (TRef.of (T := ⟨S512x4096, .i1⟩) main_v35) (TRef.of (T := ⟨S512x4096, .f32⟩) main_call3_v0) (TRef.of (T := ⟨S512x4096, .f32⟩) main_v33) (TRef.of (T := ⟨S512x4096, .f32⟩) main_v36) select,
    nullary main_cst_13 (constant S_ .f32 0x3BE38E39#32),
    unary main_cst_13 main_v37 (broadcastInDim S512x4096 ![] bcast_S_S512x4096 : (⟨S_, .f32⟩ : BufTy).Contents (Elt F) → (⟨S512x4096, .f32⟩ : BufTy).Contents (Elt F)),
    binary main_v37 main_arg3 main_v38 (mulf : (⟨S512x4096, .f32⟩ : BufTy).Contents (Elt F) → (⟨S512x4096, .f32⟩ : BufTy).Contents (Elt F) → (⟨S512x4096, .f32⟩ : BufTy).Contents (Elt F)),
    binary main_arg3 main_v38 main_v39 (subf : (⟨S512x4096, .f32⟩ : BufTy).Contents (Elt F) → (⟨S512x4096, .f32⟩ : BufTy).Contents (Elt F) → (⟨S512x4096, .f32⟩ : BufTy).Contents (Elt F)),
    nullary main_cst_14 (constant S_ .f32 0xC28D3333#32),
    unary main_cst_14 main_v40 (broadcastInDim S512x4096 ![] bcast_S_S512x4096 : (⟨S_, .f32⟩ : BufTy).Contents (Elt F) → (⟨S512x4096, .f32⟩ : BufTy).Contents (Elt F)),
    binary main_arg1 main_v40 main_v41 (subf : (⟨S512x4096, .f32⟩ : BufTy).Contents (Elt F) → (⟨S512x4096, .f32⟩ : BufTy).Contents (Elt F) → (⟨S512x4096, .f32⟩ : BufTy).Contents (Elt F)),
    nullary main_cst_15 (constant S_ .f32 0x3CE38E39#32),
    unary main_cst_15 main_v42 (broadcastInDim S512x4096 ![] bcast_S_S512x4096 : (⟨S_, .f32⟩ : BufTy).Contents (Elt F) → (⟨S512x4096, .f32⟩ : BufTy).Contents (Elt F)),
    binary main_v42 main_v41 main_v43 (mulf : (⟨S512x4096, .f32⟩ : BufTy).Contents (Elt F) → (⟨S512x4096, .f32⟩ : BufTy).Contents (Elt F) → (⟨S512x4096, .f32⟩ : BufTy).Contents (Elt F)),
    binary main_v39 main_v43 main_v44 (addf : (⟨S512x4096, .f32⟩ : BufTy).Contents (Elt F) → (⟨S512x4096, .f32⟩ : BufTy).Contents (Elt F) → (⟨S512x4096, .f32⟩ : BufTy).Contents (Elt F)),
    nullary main_cst_16 (constant S_ .f32 0x3DA4DD2F#32),
    unary main_cst_16 main_v45 (broadcastInDim S512x4096 ![] bcast_S_S512x4096 : (⟨S_, .f32⟩ : BufTy).Contents (Elt F) → (⟨S512x4096, .f32⟩ : BufTy).Contents (Elt F)),
    binary main_v45 main_arg4 main_v46 (mulf : (⟨S512x4096, .f32⟩ : BufTy).Contents (Elt F) → (⟨S512x4096, .f32⟩ : BufTy).Contents (Elt F) → (⟨S512x4096, .f32⟩ : BufTy).Contents (Elt F)),
    binary main_v44 main_v46 main_v47 (addf : (⟨S512x4096, .f32⟩ : BufTy).Contents (Elt F) → (⟨S512x4096, .f32⟩ : BufTy).Contents (Elt F) → (⟨S512x4096, .f32⟩ : BufTy).Contents (Elt F)),
    nullary main_cst_17 (constant S_ .f32 0xC249999A#32),
    unary main_cst_17 main_v48 (broadcastInDim S512x4096 ![] bcast_S_S512x4096 : (⟨S_, .f32⟩ : BufTy).Contents (Elt F) → (⟨S512x4096, .f32⟩ : BufTy).Contents (Elt F)),
    binary main_v48 main_v36 main_v49 (subf : (⟨S512x4096, .f32⟩ : BufTy).Contents (Elt F) → (⟨S512x4096, .f32⟩ : BufTy).Contents (Elt F) → (⟨S512x4096, .f32⟩ : BufTy).Contents (Elt F)),
    unary main_v49 main_v50 (Host.negf : (⟨S512x4096, .f32⟩ : BufTy).Contents (Elt F) → (⟨S512x4096, .f32⟩ : BufTy).Contents (Elt F)),
    nullary main_cst_18 (constant S_ .f32 0x41A1999A#32),
    unary main_cst_18 main_v51 (broadcastInDim S512x4096 ![] bcast_S_S512x4096 : (⟨S_, .f32⟩ : BufTy).Contents (Elt F) → (⟨S512x4096, .f32⟩ : BufTy).Contents (Elt F)),
    binary main_v50 main_v51 main_v52 (Host.divf : (⟨S512x4096, .f32⟩ : BufTy).Contents (Elt F) → (⟨S512x4096, .f32⟩ : BufTy).Contents (Elt F) → (⟨S512x4096, .f32⟩ : BufTy).Contents (Elt F)),
    nullary main_cst_19 (constant S_ .f32 0x3E99999A#32),
    nullary main_cst_20 (constant S_ .f32 0x00000000#32),
    unary main_cst_20 main_v53 (broadcastInDim S512x4096 ![] bcast_S_S512x4096 : (⟨S_, .f32⟩ : BufTy).Contents (Elt F) → (⟨S512x4096, .f32⟩ : BufTy).Contents (Elt F)),
    binary main_v52 main_v53 main_v54 (cmpf .ogt : (⟨S512x4096, .f32⟩ : BufTy).Contents (Elt F) → (⟨S512x4096, .f32⟩ : BufTy).Contents (Elt F) → (⟨S512x4096, .i1⟩ : BufTy).Contents (Elt F)),
    unary main_v54 main_v55 (uitofp .f32 : (⟨S512x4096, .i1⟩ : BufTy).Contents (Elt F) → (⟨S512x4096, .f32⟩ : BufTy).Contents (Elt F)),
    nullary main_c_21 (constantI S_ 32 0#32),
    unary main_c_21 main_v56 (broadcastInDim S512x4096 ![] bcast_S_S512x4096 : (⟨S_, .i32⟩ : BufTy).Contents (Elt F) → (⟨S512x4096, .i32⟩ : BufTy).Contents (Elt F)),
    binary main_arg2 main_v56 main_v57 (cmpi .sgt : (⟨S512x4096, .i32⟩ : BufTy).Contents (Elt F) → (⟨S512x4096, .i32⟩ : BufTy).Contents (Elt F) → (⟨S512x4096, .i1⟩ : BufTy).Contents (Elt F)),
    nullary main_cst_22 (constant S_ .f32 0x00000000#32),
    TRef.unary (TRef.of (T := ⟨S_, .f32⟩) main_cst_22) (TRef.of (T := ⟨S_, .f32⟩) main_call4_v0) id,
    TRef.unary (TRef.of (T := ⟨S_, .f32⟩) main_call4_v0) (TRef.of (T := ⟨S512x4096, .f32⟩) main_call4_v1) (broadcastInDim S512x4096 ![] bcast_S_S512x4096),
    TRef.ternary (TRef.of (T := ⟨S512x4096, .i1⟩) main_v57) (TRef.of (T := ⟨S512x4096, .f32⟩) main_call4_v1) (TRef.of (T := ⟨S512x4096, .f32⟩) main_v55) (TRef.of (T := ⟨S512x4096, .f32⟩) main_v58) select,
    nullary main_c_23 (constantI S_ 32 1#32),
    unary main_c_23 main_v59 (broadcastInDim S512x4096 ![] bcast_S_S512x4096 : (⟨S_, .i32⟩ : BufTy).Contents (Elt F) → (⟨S512x4096, .i32⟩ : BufTy).Contents (Elt F)),
    binary main_arg2 main_v59 main_v60 (subi : (⟨S512x4096, .i32⟩ : BufTy).Contents (Elt F) → (⟨S512x4096, .i32⟩ : BufTy).Contents (Elt F) → (⟨S512x4096, .i32⟩ : BufTy).Contents (Elt F)),
    nullary main_cst_24 (constant S_ .f32 0x40000000#32),
    unary main_cst_24 main_v61 (broadcastInDim S512x4096 ![] bcast_S_S512x4096 : (⟨S_, .f32⟩ : BufTy).Contents (Elt F) → (⟨S512x4096, .f32⟩ : BufTy).Contents (Elt F)),
    binary main_v58 main_v61 main_v62 (mulf : (⟨S512x4096, .f32⟩ : BufTy).Contents (Elt F) → (⟨S512x4096, .f32⟩ : BufTy).Contents (Elt F) → (⟨S512x4096, .f32⟩ : BufTy).Contents (Elt F)),
    unary main_v62 main_v63 (fptosi 32 : (⟨S512x4096, .f32⟩ : BufTy).Contents (Elt F) → (⟨S512x4096, .i32⟩ : BufTy).Contents (Elt F)),
    binary main_v60 main_v63 main_v64 (addi : (⟨S512x4096, .i32⟩ : BufTy).Contents (Elt F) → (⟨S512x4096, .i32⟩ : BufTy).Contents (Elt F) → (⟨S512x4096, .i32⟩ : BufTy).Contents (Elt F)),
    nullary main_c_25 (constantI S_ 32 0#32),
    nullary main_c_26 (constantI S_ 32 2#32),
    TRef.unary (TRef.of (T := ⟨S_, .i32⟩) main_c_25) (TRef.of (T := ⟨S_, .i32⟩) main_call5_v0) id,
    TRef.unary (TRef.of (T := ⟨S_, .i32⟩) main_call5_v0) (TRef.of (T := ⟨S512x4096, .i32⟩) main_call5_v1) (broadcastInDim S512x4096 ![] bcast_S_S512x4096),
    TRef.binary (TRef.of (T := ⟨S512x4096, .i32⟩) main_call5_v1) (TRef.of (T := ⟨S512x4096, .i32⟩) main_v64) (TRef.of (T := ⟨S512x4096, .i32⟩) main_call5_v2) maxsi,
    TRef.unary (TRef.of (T := ⟨S_, .i32⟩) main_c_26) (TRef.of (T := ⟨S_, .i32⟩) main_call5_v3) id,
    TRef.unary (TRef.of (T := ⟨S_, .i32⟩) main_call5_v3) (TRef.of (T := ⟨S512x4096, .i32⟩) main_call5_v4) (broadcastInDim S512x4096 ![] bcast_S_S512x4096),
    TRef.binary (TRef.of (T := ⟨S512x4096, .i32⟩) main_call5_v4) (TRef.of (T := ⟨S512x4096, .i32⟩) main_call5_v2) (TRef.of (T := ⟨S512x4096, .i32⟩) main_v65) minsi ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., unary_bufs_sub .., ternary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., ternary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxRecDepth 8192 in
set_option maxHeartbeats 44800000 in
/-- From any memory with zero counters, every weakly fair execution of the program terminates with the four results
    at their compositions of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) = resV (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v58) = resZ (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v47) = resW (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v65) = resR (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v36).trans (by after_results_simp <;> rfl),
      (h c main_v58).trans (by after_results_simp <;> rfl),
      (h c main_v47).trans (by after_results_simp <;> rfl),
      (h c main_v65).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.HandRun

end
-- ==== Proof.RefRead.lean ====
/-
  The reference computation's four results, read at an index on the extended reals, are the neuron step of the
  specification. Three facts carry the comparison beyond unfolding: the reference keeps a masked recurrent weight only
  where its product with the sign of the weight is at least zero, and that product is a magnitude (or zero on the
  diagonal), so nothing is dropped; a negation is a subtraction from zero; and a one-bit comparison result read as an
  unsigned number is the same 0 or 1 as its 32-bit widening read as a signed number.
-/
import proofs.«148327_j80693845557793_1_alg».proof.Proof.RefRun
import proofs.«148327_j80693845557793_1_alg».proof.Proof.Spec
import Idealize.ShloMosaic.PureOps.Ideal.Laws
import Idealize.ShloMosaic.Lib.ValueIdx

noncomputable section

open scoped BigOperators
open Idealize.ShloMosaic Idealize.ShloMosaic.ValueIdx
open Cert.ReferenceIdeal Cert.ReferenceIdeal.Gen Cert.ReferenceIdeal.HandRun

namespace Cert.RefValue

/-! ## Scalar laws -/

/-- The sign of an extended real times the number itself is its magnitude, so it is never negative; at the
    infinities too: `1 * ⊤ = ⊤` and `-1 * ⊥ = ⊤`. -/
theorem sign_mul_self_nonneg (a : EReal) : 0 ≤ Ideal.sign a * a := by
  induction a using EReal.rec with
  | bot => rw [Ideal.sign_bot, neg_mul, one_mul, EReal.neg_bot]; exact le_top
  | top => rw [Ideal.sign_top, one_mul]; exact le_top
  | coe r =>
    rw [Ideal.sign_coe, ← EReal.coe_mul, sign_mul_self]
    exact EReal.coe_nonneg.mpr (abs_nonneg r)

/-- Keeping `m` (a weight `a`, or zero where `c` holds) only where `sign a * m ≥ 0` keeps it everywhere. -/
theorem mask_noop (c : BitVec 1) (a : EReal) :
    Scalar.select (Ideal.cmp .oge (Ideal.sign a * Scalar.select c (0 : EReal) a) 0) (Scalar.select c (0 : EReal) a) 0
      = Scalar.select c 0 a := by
  have h : (0 : EReal) ≤ Ideal.sign a * Scalar.select c (0 : EReal) a := by
    unfold Scalar.select
    split
    · rw [mul_zero]
    · exact sign_mul_self_nonneg a
  unfold Ideal.cmp
  simp only [decide_eq_true h]
  exact select_one _ _

/-- Comparing the row number (plus zero) with the column number as 32-bit words decides whether they are equal:
    both are below `2 ^ 32`. -/
theorem diag_select {α : Type} (k n : Nat) (hk : k < 4096) (hn : n < 4096) (z a : α) :
    Scalar.select (IntOp.cmpi .eq (IntOp.addi (BitVec.ofNat 32 k) 0#32) (BitVec.ofNat 32 n)) z a
      = if k = n then z else a := by
  have e : (BitVec.ofNat 32 k == BitVec.ofNat 32 n) = decide (k = n) := by
    by_cases h : k = n
    · subst h; simp
    · have hne : BitVec.ofNat 32 k ≠ BitVec.ofNat 32 n := by
        intro hh
        have := congrArg BitVec.toNat hh
        rw [BitVec.toNat_ofNat, BitVec.toNat_ofNat, Nat.mod_eq_of_lt (by omega), Nat.mod_eq_of_lt (by omega)] at this
        exact h this
      simp [h, hne]
  unfold IntOp.cmpi IntOp.addi Scalar.select
  rw [BitVec.add_zero, e]
  by_cases h : k = n <;> simp [h]

/-- A negation is a subtraction from the zero word's value. -/
theorem neg_eq_zero_sub (x : EReal) : -x = Cert.Spec.cZero - x := by
  rw [show Cert.Spec.cZero = 0 from Ideal.ofBits_zero_f32, zero_sub]

/-! ## The two contractions at an index -/

/-! The operand coordinates of each contraction at an output index `i` and a contraction index `q`: the left operand is
read at `(i 0, q)`, the right at `(q, i 1)`. -/

theorem lhsIn_0 (i : S512x4096.Idx) (q : dot_S512x2048_S2048x4096_S512x4096_1_0_0_1_n_n.contr.Idx) : (dot_S512x2048_S2048x4096_S512x4096_1_0_0_1_n_n.lhsIdx i q 0).val = (i 0).val := by
  unfold DotDims.lhsIdx
  rw [dif_neg (show ¬(0 : Fin S512x2048.rank) ∈ dot_S512x2048_S2048x4096_S512x4096_1_0_0_1_n_n.lhsBatch by decide),
    dif_pos (show (0 : Fin S512x2048.rank) ∈ dot_S512x2048_S2048x4096_S512x4096_1_0_0_1_n_n.lhsNonContracting by decide)]
  rfl
theorem lhsIn_1 (i : S512x4096.Idx) (q : dot_S512x2048_S2048x4096_S512x4096_1_0_0_1_n_n.contr.Idx) :
    (dot_S512x2048_S2048x4096_S512x4096_1_0_0_1_n_n.lhsIdx i q 1).val = (q ⟨0, by decide⟩).val :=
  dot_S512x2048_S2048x4096_S512x4096_1_0_0_1_n_n.lhsIdx_val_of_single rfl i q
theorem rhsIn_0 (i : S512x4096.Idx) (q : dot_S512x2048_S2048x4096_S512x4096_1_0_0_1_n_n.contr.Idx) :
    (dot_S512x2048_S2048x4096_S512x4096_1_0_0_1_n_n.rhsIdx i q 0).val = (q ⟨0, by decide⟩).val :=
  dot_S512x2048_S2048x4096_S512x4096_1_0_0_1_n_n.rhsIdx_val_of_single rfl i q
theorem rhsIn_1 (i : S512x4096.Idx) (q : dot_S512x2048_S2048x4096_S512x4096_1_0_0_1_n_n.contr.Idx) : (dot_S512x2048_S2048x4096_S512x4096_1_0_0_1_n_n.rhsIdx i q 1).val = (i 1).val := by
  unfold DotDims.rhsIdx
  rw [dif_neg (show ¬(1 : Fin S2048x4096.rank) ∈ dot_S512x2048_S2048x4096_S512x4096_1_0_0_1_n_n.rhsBatch by decide),
    dif_pos (show (1 : Fin S2048x4096.rank) ∈ dot_S512x2048_S2048x4096_S512x4096_1_0_0_1_n_n.rhsNonContracting by decide)]
  rfl

theorem lhsRec_0 (i : S512x4096.Idx) (q : dot_S512x4096_S4096x4096_S512x4096_1_0_0_1_n_n.contr.Idx) : (dot_S512x4096_S4096x4096_S512x4096_1_0_0_1_n_n.lhsIdx i q 0).val = (i 0).val := by
  unfold DotDims.lhsIdx
  rw [dif_neg (show ¬(0 : Fin S512x4096.rank) ∈ dot_S512x4096_S4096x4096_S512x4096_1_0_0_1_n_n.lhsBatch by decide),
    dif_pos (show (0 : Fin S512x4096.rank) ∈ dot_S512x4096_S4096x4096_S512x4096_1_0_0_1_n_n.lhsNonContracting by decide)]
  rfl
theorem lhsRec_1 (i : S512x4096.Idx) (q : dot_S512x4096_S4096x4096_S512x4096_1_0_0_1_n_n.contr.Idx) :
    (dot_S512x4096_S4096x4096_S512x4096_1_0_0_1_n_n.lhsIdx i q 1).val = (q ⟨0, by decide⟩).val :=
  dot_S512x4096_S4096x4096_S512x4096_1_0_0_1_n_n.lhsIdx_val_of_single rfl i q
theorem rhsRec_0 (i : S512x4096.Idx) (q : dot_S512x4096_S4096x4096_S512x4096_1_0_0_1_n_n.contr.Idx) :
    (dot_S512x4096_S4096x4096_S512x4096_1_0_0_1_n_n.rhsIdx i q 0).val = (q ⟨0, by decide⟩).val :=
  dot_S512x4096_S4096x4096_S512x4096_1_0_0_1_n_n.rhsIdx_val_of_single rfl i q
theorem rhsRec_1 (i : S512x4096.Idx) (q : dot_S512x4096_S4096x4096_S512x4096_1_0_0_1_n_n.contr.Idx) : (dot_S512x4096_S4096x4096_S512x4096_1_0_0_1_n_n.rhsIdx i q 1).val = (i 1).val := by
  unfold DotDims.rhsIdx
  rw [dif_neg (show ¬(1 : Fin S4096x4096.rank) ∈ dot_S512x4096_S4096x4096_S512x4096_1_0_0_1_n_n.rhsBatch by decide),
    dif_pos (show (1 : Fin S4096x4096.rank) ∈ dot_S512x4096_S4096x4096_S512x4096_1_0_0_1_n_n.rhsNonContracting by decide)]
  rfl

/-- The inputs' contraction with the input weights, entry `(b, n)`: the sum over the 2048 inputs. -/
theorem dotIn_apply (x : S512x2048.Idx → EReal) (iw : S2048x4096.Idx → EReal) (i : S512x4096.Idx) :
    Host.dotGeneral (F := Ideal) (φ₁ := .f32) (φ₂ := .f32) dot_S512x2048_S2048x4096_S512x4096_1_0_0_1_n_n none x iw i
      = ∑ k : Fin 2048, x (ix2 (i 0) k) * iw (ix2 k (i 1)) := by
  simp only [Host.dotGeneral]
  rw [Ideal.dotGeneral_apply, ← Equiv.sum_comp (contrEquiv1 dot_S512x2048_S2048x4096_S512x4096_1_0_0_1_n_n 2048 rfl rfl).symm]
  refine Finset.sum_congr rfl fun k _ => ?_
  have hk := contrEquiv1_symm_val dot_S512x2048_S2048x4096_S512x4096_1_0_0_1_n_n 2048 rfl rfl k
  have el : dot_S512x2048_S2048x4096_S512x4096_1_0_0_1_n_n.lhsIdx i ((contrEquiv1 dot_S512x2048_S2048x4096_S512x4096_1_0_0_1_n_n 2048 rfl rfl).symm k) = ix2 (i 0) k :=
    funext fun a => Fin.ext (by
      match a with
      | ⟨0, _⟩ => exact lhsIn_0 _ _
      | ⟨1, _⟩ => exact (lhsIn_1 _ _).trans hk)
  have er : dot_S512x2048_S2048x4096_S512x4096_1_0_0_1_n_n.rhsIdx i ((contrEquiv1 dot_S512x2048_S2048x4096_S512x4096_1_0_0_1_n_n 2048 rfl rfl).symm k) = ix2 k (i 1) :=
    funext fun a => Fin.ext (by
      match a with
      | ⟨0, _⟩ => exact (rhsIn_0 _ _).trans hk
      | ⟨1, _⟩ => exact rhsIn_1 _ _)
  exact congrArg₂ (· * ·) (congrArg x el) (congrArg iw er)

/-- The previous spikes' contraction with a 4096 by 4096 matrix, entry `(b, n)`: the sum over the 4096 neurons. -/
theorem dotRec_apply (z : S512x4096.Idx → EReal) (m : S4096x4096.Idx → EReal) (i : S512x4096.Idx) :
    Host.dotGeneral (F := Ideal) (φ₁ := .f32) (φ₂ := .f32) dot_S512x4096_S4096x4096_S512x4096_1_0_0_1_n_n none z m i
      = ∑ k : Fin 4096, z (ix2 (i 0) k) * m (ix2 k (i 1)) := by
  simp only [Host.dotGeneral]
  rw [Ideal.dotGeneral_apply, ← Equiv.sum_comp (contrEquiv1 dot_S512x4096_S4096x4096_S512x4096_1_0_0_1_n_n 4096 rfl rfl).symm]
  refine Finset.sum_congr rfl fun k _ => ?_
  have hk := contrEquiv1_symm_val dot_S512x4096_S4096x4096_S512x4096_1_0_0_1_n_n 4096 rfl rfl k
  have el : dot_S512x4096_S4096x4096_S512x4096_1_0_0_1_n_n.lhsIdx i ((contrEquiv1 dot_S512x4096_S4096x4096_S512x4096_1_0_0_1_n_n 4096 rfl rfl).symm k) = ix2 (i 0) k :=
    funext fun a => Fin.ext (by
      match a with
      | ⟨0, _⟩ => exact lhsRec_0 _ _
      | ⟨1, _⟩ => exact (lhsRec_1 _ _).trans hk)
  have er : dot_S512x4096_S4096x4096_S512x4096_1_0_0_1_n_n.rhsIdx i ((contrEquiv1 dot_S512x4096_S4096x4096_S512x4096_1_0_0_1_n_n 4096 rfl rfl).symm k) = ix2 k (i 1) :=
    funext fun a => Fin.ext (by
      match a with
      | ⟨0, _⟩ => exact (rhsRec_0 _ _).trans hk
      | ⟨1, _⟩ => exact rhsRec_1 _ _)
  exact congrArg₂ (· * ·) (congrArg z el) (congrArg m er)

/-! ## The masked weights and the current -/

/-- The reference's masked recurrent weight at `(k, n)`: zero on the diagonal, the weight off it. -/
theorem signKept_apply (a6 : (⟨S4096x4096, .f32⟩ : BufTy).Contents (Elt Ideal)) (j : S4096x4096.Idx) :
    signKept (F := Ideal) a6 j = if (j 0).val = (j 1).val then 0 else a6 j := by
  show Scalar.select
      (Ideal.cmp .oge (Ideal.sign (a6 j) * Scalar.select
          (IntOp.cmpi .eq (IntOp.addi (BitVec.ofNat 32 (j 0).val) 0#32) (BitVec.ofNat 32 (j 1).val))
          (Ideal.ofBits .f32 0x00000000#32) (a6 j)) (Ideal.ofBits .f32 0x00000000#32))
      (Scalar.select
          (IntOp.cmpi .eq (IntOp.addi (BitVec.ofNat 32 (j 0).val) 0#32) (BitVec.ofNat 32 (j 1).val))
          (Ideal.ofBits .f32 0x00000000#32) (a6 j))
      (Ideal.ofBits .f32 0x00000000#32) = _
  rw [Ideal.ofBits_zero_f32, mask_noop, diag_select _ _ (j 0).isLt (j 1).isLt]

/-- The reference's input current is the specification's. -/
theorem resCur_apply (a0 : (⟨S512x2048, .f32⟩ : BufTy).Contents (Elt Ideal)) (a4 : (⟨S512x4096, .f32⟩ : BufTy).Contents (Elt Ideal))
    (a5 : (⟨S2048x4096, .f32⟩ : BufTy).Contents (Elt Ideal)) (a6 : (⟨S4096x4096, .f32⟩ : BufTy).Contents (Elt Ideal)) (i : S512x4096.Idx) :
    resCur (F := Ideal) a0 a4 a5 a6 i = Cert.Spec.cur a0 a5 a4 a6 (i 0) (i 1) := by
  show Host.dotGeneral (F := Ideal) (φ₁ := .f32) (φ₂ := .f32) dot_S512x2048_S2048x4096_S512x4096_1_0_0_1_n_n none a0 a5 i
      + Host.dotGeneral (F := Ideal) (φ₁ := .f32) (φ₂ := .f32) dot_S512x4096_S4096x4096_S512x4096_1_0_0_1_n_n none a4 (signKept (F := Ideal) a6) i = _
  rw [dotIn_apply, dotRec_apply]
  unfold Cert.Spec.cur
  refine congrArg _ (Finset.sum_congr rfl fun k _ => ?_)
  rw [signKept_apply]

/-! ## The four results -/

section Results
variable (a0 : (⟨S512x2048, .f32⟩ : BufTy).Contents (Elt Ideal)) (a1 : (⟨S512x4096, .f32⟩ : BufTy).Contents (Elt Ideal))
    (a2 : (⟨S512x4096, .i32⟩ : BufTy).Contents (Elt Ideal)) (a3 a4 : (⟨S512x4096, .f32⟩ : BufTy).Contents (Elt Ideal))
    (a5 : (⟨S2048x4096, .f32⟩ : BufTy).Contents (Elt Ideal)) (a6 : (⟨S4096x4096, .f32⟩ : BufTy).Contents (Elt Ideal))

/-- The new potentials. -/
theorem ref_newV : resV (F := Ideal) a0 a1 a2 a3 a4 a5 a6 = Cert.Spec.GV a0 a1 a3 a4 a5 a6 := by
  funext i
  show Cert.Spec.newV (resCur (F := Ideal) a0 a4 a5 a6 i) (a1 i) (a3 i) (a4 i) = _
  rw [resCur_apply]
  rfl

/-- The new adaptation currents. -/
theorem ref_newW : resW (F := Ideal) a0 a1 a2 a3 a4 a5 a6 = Cert.Spec.GW a1 a3 a4 := by
  funext i
  rfl

/-- The new spike indicators. -/
theorem ref_newZ : resZ (F := Ideal) a0 a1 a2 a3 a4 a5 a6 = Cert.Spec.GZ a0 a1 a2 a3 a4 a5 a6 := by
  funext i
  show Scalar.select (IntOp.cmpi .sgt (a2 i) 0#32) Cert.Spec.cZero
      (((Ideal.cmp .ogt (Ideal.div (-(Cert.Spec.cThr - resV (F := Ideal) a0 a1 a2 a3 a4 a5 a6 i)) Cert.Spec.cScale)
          Cert.Spec.cZero).toNat : ℝ) : EReal) = _
  rw [ref_newV, ← Cert.Spec.bit_toInt_eq_toNat, neg_eq_zero_sub]
  rfl

/-- The new refractory counters. -/
theorem ref_newR : resR (F := Ideal) a0 a1 a2 a3 a4 a5 a6 = Cert.Spec.GR a0 a1 a2 a3 a4 a5 a6 := by
  funext i
  show IntOp.minsi 2#32 (IntOp.maxsi 0#32 (IntOp.addi (IntOp.subi (a2 i) 1#32)
      (Ideal.fptosi 32 (resZ (F := Ideal) a0 a1 a2 a3 a4 a5 a6 i * Cert.Spec.cTwo)))) = _
  rw [ref_newZ]
  rfl

end Results

end Cert.RefValue

end
-- ==== Proof.lean ====
/-
  The certificate of one step of an adaptive exponential integrate-and-fire layer with refractory
  counters, computed over sixteen column tiles, against its whole-array reference.

  Both programs compute, for every batch row b and unit n, the synaptic current
    cur[b,n] = Σ_k x[b,k]·W_in[k,n] + Σ_k z[b,k]·M[k,n],   M = the recurrent weights with the diagonal zeroed,
  and from it, pointwise, the new membrane voltage, the new spikes, the new adaptation current and the new
  refractory counters.  The reference additionally keeps M[k,n] only where sign(W_rec[k,n])·M[k,n] ≥ 0, which
  holds everywhere (the product is |W_rec[k,n]| off the diagonal and 0 on it), writes −a where the tiled program
  writes 0 − a, and converts a comparison bit to a float directly where the tiled program widens it to a word
  first; on the extended reals these are equalities, and the two matrix products are the same sums.  So each of
  the four result arrays of either program is one function of the seven argument arrays, index by index, and
  the functions are the same.  No step uses that the inputs are finite.
-/
import proofs.«148327_j80693845557793_1_alg».proof.Defs
import proofs.«148327_j80693845557793_1_alg».proof.Proof.Gen.Kernel
import proofs.«148327_j80693845557793_1_alg».proof.Proof.Gen.KernelIdeal
import proofs.«148327_j80693845557793_1_alg».proof.Proof.Gen.ReferenceIdeal
import proofs.«148327_j80693845557793_1_alg».proof.Proof.Gen.Pre_finite_inputs
import proofs.«148327_j80693845557793_1_alg».proof.Proof.KernelFrame
import proofs.«148327_j80693845557793_1_alg».proof.Proof.KIValue
import proofs.«148327_j80693845557793_1_alg».proof.Proof.RefRead
import Idealize.ShloMosaic.Adequacy
import Idealize.ShloMosaic.Init

noncomputable section

namespace Cert.Proof

open Idealize.ShloMosaic Idealize.SL.Sem

/-- The word-level tiled program runs to the end, faults nowhere and leaves its arguments unchanged. -/
theorem frame_kernel : Cert.frame_Kernel := fun m ρ _ => Cert.Kernel.Hand.frame (F := Bits) m ρ

/-- So does its reading over the extended reals. -/
theorem frame_kernel_ideal : Cert.frame_KernelIdeal := fun m ρ _ => Cert.KernelIdeal.Hand.frame (F := Ideal) m ρ

/-- The reference is a straight line of host operations: its run, with what it says of the results dropped. -/
theorem frame_reference : Cert.frame_ReferenceIdeal := fun m ρ _ =>
  (θ_run Cert.ReferenceIdeal.defs _ _).mono (fun _ h c => (h c).2.2.2.2)
    (Cert.ReferenceIdeal.HandRun.run (F := Ideal) m ρ)

/-- The idealization rewrote no operation: nothing to preserve. -/
theorem preserves : Cert.preserves_Kernel_KernelIdeal := trivial

/-- Over the extended reals the tiled program's four result arrays and the reference's are the same four
    functions of arguments that agree. -/
theorem algebraic : Cert.algebraic_KernelIdeal_ReferenceIdeal := by
  intro m ρ m' ρ' _ hagree
  refine ⟨_, _, _, _, Cert.KernelIdeal.HandValue.run m ρ, ?_⟩
  refine (θ_run Cert.ReferenceIdeal.defs _ _).mono (fun _ h c => ?_)
    (Cert.ReferenceIdeal.HandRun.run (F := Ideal) m' ρ')
  obtain ⟨hv, hz, hw, hr, hargs⟩ := h c
  obtain ⟨e0, e1, e2, e3, e4, e5, e6⟩ := hagree c
  refine ⟨hv.trans ?_, hz.trans ?_, hw.trans ?_, hr.trans ?_, hargs⟩
  · rw [Cert.RefValue.ref_newV, e0, e1, e3, e4, e5, e6]
  · rw [Cert.RefValue.ref_newZ, e0, e1, e2, e3, e4, e5, e6]
  · rw [Cert.RefValue.ref_newW, e1, e3, e4]
  · rw [Cert.RefValue.ref_newR, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
